-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8x512 : Shape := ⟨3, ![8192, 8, 512]⟩
abbrev S8192x8x1 : Shape := ⟨3, ![8192, 8, 1]⟩
abbrev S512x1536 : Shape := ⟨2, ![512, 1536]⟩
abbrev S512x512 : Shape := ⟨2, ![512, 512]⟩
abbrev S1024x1536 : Shape := ⟨2, ![1024, 1536]⟩
abbrev S1024x512 : Shape := ⟨2, ![1024, 512]⟩
abbrev S1536 : Shape := ⟨1, ![1536]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8x512 : S_.BroadcastsInDim S8192x8x512 (![] : Fin 0 → Fin S8192x8x512.rank)
  reducesTo_S8192x8x512_S_d0_1_2 : S8192x8x512.ReducesTo [0, 1, 2] S_
  bcast_S_S8192x8x1 : S_.BroadcastsInDim S8192x8x1 (![] : Fin 0 → Fin S8192x8x1.rank)
  reducesTo_S8192x8x1_S_d0_1_2 : S8192x8x1.ReducesTo [0, 1, 2] S_
  bcast_S_S512x1536 : S_.BroadcastsInDim S512x1536 (![] : Fin 0 → Fin S512x1536.rank)
  reducesTo_S512x1536_S_d0_1 : S512x1536.ReducesTo [0, 1] S_
  bcast_S_S512x512 : S_.BroadcastsInDim S512x512 (![] : Fin 0 → Fin S512x512.rank)
  reducesTo_S512x512_S_d0_1 : S512x512.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S1024x512 : S_.BroadcastsInDim S1024x512 (![] : Fin 0 → Fin S1024x512.rank)
  reducesTo_S1024x512_S_d0_1 : S1024x512.ReducesTo [0, 1] S_
  bcast_S_S1536 : S_.BroadcastsInDim S1536 (![] : Fin 0 → Fin S1536.rank)
  reducesTo_S1536_S_d0 : S1536.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S1024x512 .f32) (main_arg8 : FVec F S1536 .f32) (main_arg9 : FVec F S512 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S1536 .f32 := Host.absf main_arg8
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  main_v48

def fn_part1 {F : FTy → Type} [FloatOps F] (main_arg4 : FVec F S512x1536 .f32) (main_arg5 : FVec F S512x512 .f32) (main_arg6 : FVec F S1024x1536 .f32) (main_arg7 : FVec F S1024x512 .f32) (main_arg8 : FVec F S1536 .f32) (main_arg9 : FVec F S512 .f32) (main_v13 : IVec S_ 1) (main_v16 : IVec S8192x8x1 1) : IVec S_ 1 :=
  let main_c_5 : IVec S_ 1 := constantI S_ 1 1#1
  let main_v17 : IVec S_ 1 := (fun x v => Host.reduce IntOp.andi x v reducesTo_S8192x8x1_S_d0_1_2 h_S_) main_v16 main_c_5
  let main_v18 : IVec S_ 1 := andi main_v13 main_v17
  let main_v19 : FVec F S512x1536 .f32 := Host.absf main_arg4
  let main_cst_6 : FVec F S_ .f32 := constant S_ .f32 0x7F800000#32
  let main_v20 : FVec F S512x1536 .f32 := broadcastInDim S512x1536 ![] bcast_S_S512x1536 main_cst_6
  let main_v21 : IVec S512x1536 1 := cmpf .olt main_v19 main_v20
  let main_c_7 : IVec S_ 1 := constantI S_ 1 1#1
  let main_v22 : IVec S_ 1 := (fun x v => Host.reduce IntOp.andi x v reducesTo_S512x1536_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S1024x1536 .f32 := Host.absf main_arg6
  let main_cst_10 : FVec F S_ .f32 := constant S_ .f32 0x7F800000#32
  let main_v30 : FVec F S1024x1536 .f32 := broadcastInDim S1024x1536 ![] bcast_S_S1024x1536 main_cst_10
  let main_v31 : IVec S1024x1536 1 := cmpf .olt main_v29 main_v30
  let main_c_11 : IVec S_ 1 := constantI S_ 1 1#1
  let main_v32 : IVec S_ 1 := (fun x v => Host.reduce IntOp.andi x v reducesTo_S1024x1536_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x512 .f32) (main_arg1 : FVec F S8192x8x512 .f32) (main_arg2 : FVec F S8192x8x512 .f32) (main_arg3 : FVec F S8192x8x1 .f32) (main_arg4 : FVec F S512x1536 .f32) (main_arg5 : FVec F S512x512 .f32) (main_arg6 : FVec F S1024x1536 .f32) (main_arg7 : FVec F S1024x512 .f32) (main_arg8 : FVec F S1536 .f32) (main_arg9 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8x512 .f32 := Host.absf main_arg1
  let main_cst_0 : FVec F S_ .f32 := constant S_ .f32 0x7F800000#32
  let main_v5 : FVec F S8192x8x512 .f32 := broadcastInDim S8192x8x512 ![] bcast_S_S8192x8x512 main_cst_0
  let main_v6 : IVec S8192x8x512 1 := cmpf .olt main_v4 main_v5
  let main_c_1 : IVec S_ 1 := constantI S_ 1 1#1
  let main_v7 : IVec S_ 1 := (fun x v => Host.reduce IntOp.andi x v reducesTo_S8192x8x512_S_d0_1_2 h_S_) main_v6 main_c_1
  let main_v8 : IVec S_ 1 := andi main_v3 main_v7
  let main_v9 : FVec F S8192x8x512 .f32 := Host.absf main_arg2
  let main_cst_2 : FVec F S_ .f32 := constant S_ .f32 0x7F800000#32
  let main_v10 : FVec F S8192x8x512 .f32 := broadcastInDim S8192x8x512 ![] bcast_S_S8192x8x512 main_cst_2
  let main_v11 : IVec S8192x8x512 1 := cmpf .olt main_v9 main_v10
  let main_c_3 : IVec S_ 1 := constantI S_ 1 1#1
  let main_v12 : IVec S_ 1 := (fun x v => Host.reduce IntOp.andi x v reducesTo_S8192x8x512_S_d0_1_2 h_S_) main_v11 main_c_3
  let main_v13 : IVec S_ 1 := andi main_v8 main_v12
  let main_v14 : FVec F S8192x8x1 .f32 := Host.absf main_arg3
  let main_cst_4 : FVec F S_ .f32 := constant S_ .f32 0x7F800000#32
  let main_v15 : FVec F S8192x8x1 .f32 := broadcastInDim S8192x8x1 ![] bcast_S_S8192x8x1 main_cst_4
  let main_v16 : IVec S8192x8x1 1 := cmpf .olt main_v14 main_v15
  fn_part1 (F := F) main_arg4 main_arg5 main_arg6 main_arg7 main_arg8 main_arg9 main_v13 main_v16
-- ==== Kernel.lean ====
abbrev S8192x512 : Shape := ⟨2, ![8192, 512]⟩
abbrev S8192x8x512 : Shape := ⟨3, ![8192, 8, 512]⟩
abbrev S8192x8x1 : Shape := ⟨3, ![8192, 8, 1]⟩
abbrev S512x1536 : Shape := ⟨2, ![512, 1536]⟩
abbrev S512x512 : Shape := ⟨2, ![512, 512]⟩
abbrev S1024x1536 : Shape := ⟨2, ![1024, 1536]⟩
abbrev S1024x512 : Shape := ⟨2, ![1024, 512]⟩
abbrev S1536 : Shape := ⟨1, ![1536]⟩
abbrev S512 : Shape := ⟨1, ![512]⟩
abbrev S128x512 : Shape := ⟨2, ![128, 512]⟩
abbrev S128x8x512 : Shape := ⟨3, ![128, 8, 512]⟩
abbrev S128x8x1 : Shape := ⟨3, ![128, 8, 1]⟩
abbrev S128x1536 : Shape := ⟨2, ![128, 1536]⟩
abbrev S1x512 : Shape := ⟨2, ![1, 512]⟩
abbrev S1x1536 : Shape := ⟨2, ![1, 1536]⟩
abbrev S128x1x512 : Shape := ⟨3, ![128, 1, 512]⟩
abbrev S128x1x1 : Shape := ⟨3, ![128, 1, 1]⟩
abbrev S128x1 : Shape := ⟨2, ![128, 1]⟩
abbrev S128x1024 : Shape := ⟨2, ![128, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x8x512, .f32⟩
  | .hbm, ⟨2, _⟩ => ⟨S8192x8x512, .f32⟩
  | .hbm, ⟨3, _⟩ => ⟨S8192x8x1, .f32⟩
  | .hbm, ⟨4, _⟩ => ⟨S512x1536, .f32⟩
  | .hbm, ⟨5, _⟩ => ⟨S512x512, .f32⟩
  | .hbm, ⟨6, _⟩ => ⟨S1024x1536, .f32⟩
  | .hbm, ⟨7, _⟩ => ⟨S1024x512, .f32⟩
  | .hbm, ⟨8, _⟩ => ⟨S1536, .f32⟩
  | .hbm, ⟨9, _⟩ => ⟨S512, .f32⟩
  | .hbm, ⟨10, _⟩ => ⟨S512x1536, .bf16⟩
  | .hbm, ⟨11, _⟩ => ⟨S512x512, .bf16⟩
  | .hbm, ⟨12, _⟩ => ⟨S1024x1536, .bf16⟩
  | .hbm, ⟨13, _⟩ => ⟨S1024x512, .bf16⟩
  | .hbm, ⟨14, _⟩ => ⟨S8192x512, .f32⟩
  | .hbm, ⟨15, _⟩ => ⟨S8192x512, .f32⟩
  | .local _ .vmem, ⟨0, _⟩ => ⟨S128x512, .f32⟩
  | .local _ .vmem, ⟨1, _⟩ => ⟨S128x512, .f32⟩
  | .local _ .vmem, ⟨2, _⟩ => ⟨S128x8x512, .f32⟩
  | .local _ .vmem, ⟨3, _⟩ => ⟨S128x8x512, .f32⟩
  | .local _ .vmem, ⟨4, _⟩ => ⟨S128x8x512, .f32⟩
  | .local _ .vmem, ⟨5, _⟩ => ⟨S128x8x512, .f32⟩
  | .local _ .vmem, ⟨6, _⟩ => ⟨S128x8x1, .f32⟩
  | .local _ .vmem, ⟨7, _⟩ => ⟨S128x8x1, .f32⟩
  | .local _ .vmem, ⟨8, _⟩ => ⟨S512x1536, .bf16⟩
  | .local _ .vmem, ⟨9, _⟩ => ⟨S512x512, .bf16⟩
  | .local _ .vmem, ⟨10, _⟩ => ⟨S1024x1536, .bf16⟩
  | .local _ .vmem, ⟨11, _⟩ => ⟨S1024x512, .bf16⟩
  | .local _ .vmem, ⟨12, _⟩ => ⟨S1536, .f32⟩
  | .local _ .vmem, ⟨13, _⟩ => ⟨S512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S128x8x512_S128x8x512_0_0_0 : ∀ a, (![0, 0, 0] : Fin 3 → Nat) a + S128x8x512.size a ≤ S128x8x512.size a
  h_S128x8x512 : 0 < S128x8x512.numel
  inb_S128x8x1_S128x8x1_0_0_0 : ∀ a, (![0, 0, 0] : Fin 3 → Nat) a + S128x8x1.size a ≤ S128x8x1.size a
  h_S128x8x1 : 0 < S128x8x1.numel
  reduces_S128x8x512_S128x512 : S128x8x512.Reduces [1] S128x512
  broadcasts_S128x8x1_S128x8x512 : S128x8x1.Broadcasts S128x8x512
  inb_S1024x1536_S512x1536_0_0 : ∀ a, (![0, 0] : Fin 2 → Nat) a + S512x1536.size a ≤ S1024x1536.size a
  inb_S1024x1536_S512x1536_512_0 : ∀ a, (![512, 0] : Fin 2 → Nat) a + S512x1536.size a ≤ S1024x1536.size a
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S128x1536 : S1x1536.Broadcasts S128x1536
  slices_S128x1536_o0_0_S128x512 : S128x1536.Slices ![0, 0] S128x512
  slices_S128x1536_o0_512_S128x512 : S128x1536.Slices ![0, 512] S128x512
  slices_S128x1536_o0_1024_S128x512 : S128x1536.Slices ![0, 1024] S128x512
  slices_S128x8x512_o0_0_0_S128x1x512 : S128x8x512.Slices ![0, 0, 0] S128x1x512
  shapeCasts_S128x1x512_S128x512 : S128x1x512.ShapeCasts S128x512
  slices_S128x8x1_o0_0_0_S128x1x1 : S128x8x1.Slices ![0, 0, 0] S128x1x1
  shapeCasts_S128x1x1_S128x1 : S128x1x1.ShapeCasts S128x1
  broadcasts_S128x1_S128x512 : S128x1.Broadcasts S128x512
  concatenates_S128x512_S128x512_S128x1024_d1 : Shape.Concatenates [S128x512, S128x512] S128x1024 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  slices_S128x8x512_o0_1_0_S128x1x512 : S128x8x512.Slices ![0, 1, 0] S128x1x512
  slices_S128x8x1_o0_1_0_S128x1x1 : S128x8x1.Slices ![0, 1, 0] S128x1x1
  slices_S128x8x512_o0_2_0_S128x1x512 : S128x8x512.Slices ![0, 2, 0] S128x1x512
  slices_S128x8x1_o0_2_0_S128x1x1 : S128x8x1.Slices ![0, 2, 0] S128x1x1
  slices_S128x8x512_o0_3_0_S128x1x512 : S128x8x512.Slices ![0, 3, 0] S128x1x512
  slices_S128x8x1_o0_3_0_S128x1x1 : S128x8x1.Slices ![0, 3, 0] S128x1x1
  slices_S128x8x512_o0_4_0_S128x1x512 : S128x8x512.Slices ![0, 4, 0] S128x1x512
  slices_S128x8x1_o0_4_0_S128x1x1 : S128x8x1.Slices ![0, 4, 0] S128x1x1
  slices_S128x8x512_o0_5_0_S128x1x512 : S128x8x512.Slices ![0, 5, 0] S128x1x512
  slices_S128x8x1_o0_5_0_S128x1x1 : S128x8x1.Slices ![0, 5, 0] S128x1x1
  slices_S128x8x512_o0_6_0_S128x1x512 : S128x8x512.Slices ![0, 6, 0] S128x1x512
  slices_S128x8x1_o0_6_0_S128x1x1 : S128x8x1.Slices ![0, 6, 0] S128x1x1
  slices_S128x8x512_o0_7_0_S128x1x512 : S128x8x512.Slices ![0, 7, 0] S128x1x512
  slices_S128x8x1_o0_7_0_S128x1x1 : S128x8x1.Slices ![0, 7, 0] S128x1x1
  dot_S128x512_S512x512_S128x512_1_0_0_1_n_n_wf : DotDims.WF S128x512 S512x512 S128x512 [1] [0] [0] [1] [] []
  dot_S128x512_S512x1536_S128x1536_1_0_0_1_n_n_wf : DotDims.WF S128x512 S512x1536 S128x1536 [1] [0] [0] [1] [] []
  dot_S128x1024_S1024x512_S128x512_1_0_0_1_n_n_wf : DotDims.WF S128x1024 S1024x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8x512.size a ≤ S8192x8x512.size a
  hwx0_1 : ∀ i : grid0.Coords, EltTy.bits .f32 = 32 ∨ (Rect.block (s := S8192x8x512) S128x8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8x512.size a ≤ S8192x8x512.size a
  hwx0_2 : ∀ i : grid0.Coords, EltTy.bits .f32 = 32 ∨ (Rect.block (s := S8192x8x512) S128x8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8x1.size a ≤ S8192x8x1.size a
  hwx0_3 : ∀ i : grid0.Coords, EltTy.bits .f32 = 32 ∨ (Rect.block (s := S8192x8x1) S128x8x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1536.size a ≤ S512x1536.size a
  hwx0_4 : ∀ i : grid0.Coords, EltTy.bits .bf16 = 32 ∨ (Rect.block (s := S512x1536) S512x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1536.size a ≤ S1024x1536.size a
  hwx0_6 : ∀ i : grid0.Coords, EltTy.bits .bf16 = 32 ∨ (Rect.block (s := S1024x1536) S1024x1536.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x512.size a
  hwx0_7 : ∀ i : grid0.Coords, EltTy.bits .bf16 = 32 ∨ (Rect.block (s := S1024x512) S1024x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1536.size a ≤ S1536.size a
  hwx0_8 : ∀ i : grid0.Coords, EltTy.bits .f32 = 32 ∨ (Rect.block (s := S1536) S1536.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S8192x512.size a
  hwx0_10 : ∀ i : grid0.Coords, EltTy.bits .f32 = 32 ∨ (Rect.block (s := S8192x512) S128x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S8192x512.size a
  hwx0_11 : ∀ i : grid0.Coords, EltTy.bits .f32 = 32 ∨ (Rect.block (s := S8192x512) S128x512.size (cc0_transform_11 i) (hinb0_11 i)).WholeWords (EltTy.packing .f32)

variable [Facts₀]

def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf
def dot_S128x512_S512x1536_S128x1536_1_0_0_1_n_n : DotDims S128x512 S512x1536 S128x1536 where
  lhsContracting := [1]
  rhsContracting := [0]
  lhsNonContracting := [0]
  rhsNonContracting := [1]
  lhsBatch := []
  rhsBatch := []
  wf := dot_S128x512_S512x1536_S128x1536_1_0_0_1_n_n_wf
def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x8x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1024x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S128x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S128x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x8x512 : Shape := ⟨3, ![8192, 8, 512]⟩
abbrev S8192x8x1 : Shape := ⟨3, ![8192, 8, 1]⟩
abbrev S512x1536 : Shape := ⟨2, ![512, 1536]⟩
abbrev S512x512 : Shape := ⟨2, ![512, 512]⟩
abbrev S1024x1536 : Shape := ⟨2, ![1024, 1536]⟩
abbrev S1024x512 : Shape := ⟨2, ![1024, 512]⟩
abbrev S1536 : Shape := ⟨1, ![1536]⟩
abbrev S512 : Shape := ⟨1, ![512]⟩
abbrev S8192x1536 : Shape := ⟨2, ![8192, 1536]⟩
abbrev S_ : Shape := ⟨0, ![]⟩
abbrev S8192x8x1024 : Shape := ⟨3, ![8192, 8, 1024]⟩
abbrev S8192x1024 : Shape := ⟨2, ![8192, 1024]⟩
abbrev S8192x1x512 : Shape := ⟨3, ![8192, 1, 512]⟩
abbrev S1x1x512 : Shape := ⟨3, ![1, 1, 512]⟩
abbrev S1x1536 : Shape := ⟨2, ![1, 1536]⟩

abbrev nBuf : Space → Nat
  | .hbm => 69
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8x512, .f32⟩
  | .hbm, ⟨2, _⟩ => ⟨S8192x8x512, .f32⟩
  | .hbm, ⟨3, _⟩ => ⟨S8192x8x1, .f32⟩
  | .hbm, ⟨4, _⟩ => ⟨S512x1536, .f32⟩
  | .hbm, ⟨5, _⟩ => ⟨S512x512, .f32⟩
  | .hbm, ⟨6, _⟩ => ⟨S1024x1536, .f32⟩
  | .hbm, ⟨7, _⟩ => ⟨S1024x512, .f32⟩
  | .hbm, ⟨8, _⟩ => ⟨S1536, .f32⟩
  | .hbm, ⟨9, _⟩ => ⟨S512, .f32⟩
  | .hbm, ⟨10, _⟩ => ⟨S8192x512, .f32⟩
  | .hbm, ⟨11, _⟩ => ⟨S8192x1536, .f32⟩
  | .hbm, ⟨12, _⟩ => ⟨S8192x8x512, .f32⟩
  | .hbm, ⟨13, _⟩ => ⟨S8192x8x512, .f32⟩
  | .hbm, ⟨14, _⟩ => ⟨S_, .f32⟩
  | .hbm, ⟨15, _⟩ => ⟨S8192x8x1, .f32⟩
  | .hbm, ⟨16, _⟩ => ⟨S8192x8x1, .f32⟩
  | .hbm, ⟨17, _⟩ => ⟨S8192x8x512, .f32⟩
  | .hbm, ⟨18, _⟩ => ⟨S8192x8x512, .f32⟩
  | .hbm, ⟨19, _⟩ => ⟨S8192x8x1024, .f32⟩
  | .hbm, ⟨20, _⟩ => ⟨S_, .f32⟩
  | .hbm, ⟨21, _⟩ => ⟨S8192x1024, .f32⟩
  | .hbm, ⟨22, _⟩ => ⟨S8192x1536, .f32⟩
  | .hbm, ⟨23, _⟩ => ⟨S8192x8x512, .f32⟩
  | .hbm, ⟨24, _⟩ => ⟨S8192x1x512, .f32⟩
  | .hbm, ⟨25, _⟩ => ⟨S8192x8x512, .f32⟩
  | .hbm, ⟨26, _⟩ => ⟨S8192x8x512, .f32⟩
  | .hbm, ⟨27, _⟩ => ⟨S1x1x512, .f32⟩
  | .hbm, ⟨28, _⟩ => ⟨S8192x8x512, .f32⟩
  | .hbm, ⟨29, _⟩ => ⟨S8192x8x512, .f32⟩
  | .hbm, ⟨30, _⟩ => ⟨S8192x8x512, .f32⟩
  | .hbm, ⟨31, _⟩ => ⟨S8192x8x512, .f32⟩
  | .hbm, ⟨32, _⟩ => ⟨S_, .f32⟩
  | .hbm, ⟨33, _⟩ => ⟨S8192x8x512, .f32⟩
  | .hbm, ⟨34, _⟩ => ⟨S8192x8x512, .f32⟩
  | .hbm, ⟨35, _⟩ => ⟨S_, .f32⟩
  | .hbm, ⟨36, _⟩ => ⟨S8192x8x512, .f32⟩
  | .hbm, ⟨37, _⟩ => ⟨S8192x8x512, .f32⟩
  | .hbm, ⟨38, _⟩ => ⟨S8192x8x512, .f32⟩
  | .hbm, ⟨39, _⟩ => ⟨S_, .f32⟩
  | .hbm, ⟨40, _⟩ => ⟨S8192x512, .f32⟩
  | .hbm, ⟨41, _⟩ => ⟨S8192x1536, .f32⟩
  | .hbm, ⟨42, _⟩ => ⟨S1x1536, .f32⟩
  | .hbm, ⟨43, _⟩ => ⟨S8192x1536, .f32⟩
  | .hbm, ⟨44, _⟩ => ⟨S8192x1536, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x512, .f32⟩
  | .hbm, ⟨60, _⟩ => ⟨S8192x512, .f32⟩
  | .hbm, ⟨61, _⟩ => ⟨S_, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S8192x8x1_S8192x8x512_0_1_2 : S8192x8x1.BroadcastsInDim S8192x8x512 (![0, 1, 2] : Fin 3 → Fin S8192x8x512.rank)
  bcast_S_S8192x8x1 : S_.BroadcastsInDim S8192x8x1 (![] : Fin 0 → Fin S8192x8x1.rank)
  concatenates_S8192x8x512_S8192x8x512_S8192x8x1024_d2 : Shape.Concatenates [S8192x8x512, S8192x8x512] S8192x8x1024 2
  reducesTo_S8192x8x1024_S8192x1024_d1 : S8192x8x1024.ReducesTo [1] S8192x1024
  h_S_ : 0 < S_.numel
  bcast_S8192x512_S8192x1x512_0_2 : S8192x512.BroadcastsInDim S8192x1x512 (![0, 2] : Fin 2 → Fin S8192x1x512.rank)
  bcast_S8192x1x512_S8192x8x512_0_1_2 : S8192x1x512.BroadcastsInDim S8192x8x512 (![0, 1, 2] : Fin 3 → Fin S8192x8x512.rank)
  bcast_S512_S1x1x512_2 : S512.BroadcastsInDim S1x1x512 (![2] : Fin 1 → Fin S1x1x512.rank)
  bcast_S1x1x512_S8192x8x512_0_1_2 : S1x1x512.BroadcastsInDim S8192x8x512 (![0, 1, 2] : Fin 3 → Fin S8192x8x512.rank)
  bcast_S_S8192x8x512 : S_.BroadcastsInDim S8192x8x512 (![] : Fin 0 → Fin S8192x8x512.rank)
  reducesTo_S8192x8x512_S8192x512_d1 : S8192x8x512.ReducesTo [1] S8192x512
  bcast_S1536_S1x1536_1 : S1536.BroadcastsInDim S1x1536 (![1] : Fin 1 → Fin S1x1536.rank)
  bcast_S1x1536_S8192x1536_0_1 : S1x1536.BroadcastsInDim S8192x1536 (![0, 1] : Fin 2 → Fin S8192x1536.rank)
  slices_S8192x1536_S8192x512_0_0 : S8192x1536.Slices ![0, 0] S8192x512
  slices_S8192x1536_S8192x512_0_512 : S8192x1536.Slices ![0, 512] S8192x512
  slices_S8192x1536_S8192x512_0_1024 : S8192x1536.Slices ![0, 1024] S8192x512
  bcast_S_S8192x512 : S_.BroadcastsInDim S8192x512 (![] : Fin 0 → Fin S8192x512.rank)
  dot_S8192x512_S512x512_S8192x512_1_0_0_1_n_n_wf : DotDims.WF S8192x512 S512x512 S8192x512 [1] [0] [0] [1] [] []
  dot_S8192x512_S512x1536_S8192x1536_1_0_0_1_n_n_wf : DotDims.WF S8192x512 S512x1536 S8192x1536 [1] [0] [0] [1] [] []
  dot_S8192x1024_S1024x1536_S8192x1536_1_0_0_1_n_n_wf : DotDims.WF S8192x1024 S1024x1536 S8192x1536 [1] [0] [0] [1] [] []
  dot_S8192x8x1024_S1024x512_S8192x8x512_2_0_01_1_n_n_wf : DotDims.WF S8192x8x1024 S1024x512 S8192x8x512 [2] [0] [0, 1] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def dot_S8192x512_S512x1536_S8192x1536_1_0_0_1_n_n : DotDims S8192x512 S512x1536 S8192x1536 where
  lhsContracting := [1]
  rhsContracting := [0]
  lhsNonContracting := [0]
  rhsNonContracting := [1]
  lhsBatch := []
  rhsBatch := []
  wf := dot_S8192x512_S512x1536_S8192x1536_1_0_0_1_n_n_wf
def dot_S8192x1024_S1024x1536_S8192x1536_1_0_0_1_n_n : DotDims S8192x1024 S1024x1536 S8192x1536 where
  lhsContracting := [1]
  rhsContracting := [0]
  lhsNonContracting := [0]
  rhsNonContracting := [1]
  lhsBatch := []
  rhsBatch := []
  wf := dot_S8192x1024_S1024x1536_S8192x1536_1_0_0_1_n_n_wf
def dot_S8192x8x1024_S1024x512_S8192x8x512_2_0_01_1_n_n : DotDims S8192x8x1024 S1024x512 S8192x8x512 where
  lhsContracting := [2]
  rhsContracting := [0]
  lhsNonContracting := [0, 1]
  rhsNonContracting := [1]
  lhsBatch := []
  rhsBatch := []
  wf := dot_S8192x8x1024_S1024x512_S8192x8x512_2_0_01_1_n_n_wf

class Facts : Prop extends Facts₀ where

variable [Facts]
-- ==== Proof.Cell.lean ====
/-
  One node of the child-sum tree LSTM, as mathematics over the extended reals.

  A node has an input row `x` (512 entries), eight neighbours with hidden rows `h k` and cell rows `c k` (512 entries each)
  and one edge label `e k` per neighbour.  Neighbour `k`'s hidden row is ROUTED by its label into a row of 1024 entries:
  the first half carries the part `(1 - e k) · h k`, the second half the part `e k · h k`.  The gates are

      iou   = x · W_iou + (Σ_k routed k) · U_iou + b_iou            (1536 entries: the input, output and update gates)
      f k   = σ (x · W_f + routed k · U_f + b_f)                     (one forget gate per neighbour)
      c     = σ (iou[0:512]) ⊙ tanh (iou[1024:1536]) + Σ_k f k ⊙ c k
      h     = σ (iou[512:1024]) ⊙ tanh c.

  Two arrangements of this one function are written down.  The REFERENCE arrangement (suffix R) forms the routed rows with
  the factor `1 - e`, sums them over the neighbours and contracts the sum with the whole `U_iou`; it adds the bias `b_f`
  last.  The BLOCKED arrangement (suffix K) never forms `1 - e`: it writes the first half as `h - e · h`, sums `h` and `e · h`
  over the neighbours first (the contraction with `U_iou` is linear in the routed row), contracts `Σ h - Σ e·h` with the upper
  half of `U_iou` and `Σ e·h` with the lower half, adds the bias `b_f` before the neighbour's term, and accumulates the eight
  forget-gate products one after the other from zero.

  On the extended reals `(1 - e) · h = h - e · h` and `Σ_k (1 - e k) · h k = Σ_k h k - Σ_k e k · h k` need `e` and `h` to be real
  numbers (with `h = ⊤`, `e = 1` the left sides are `0` and the right sides `⊥`); everything else used — the order and grouping
  of sums, a sum over 1024 indices as the sum over its two halves — holds for all extended reals.  So the two arrangements
  agree at every node whose hidden rows and edge labels are real: `cellR_eq_cellK`, `hidR_eq_hidK`.
-/
import Idealize.ShloMosaic.PureOps.Ideal
import Mathlib.Algebra.BigOperators.Fin

noncomputable section

open scoped BigOperators

namespace Cert.TreeCell

open Idealize.ShloMosaic

/-- The weights shared by all nodes. -/
structure Params where
  Wi : Fin 512 → Fin 1536 → EReal
  Wf : Fin 512 → Fin 512 → EReal
  Ui : Fin 1024 → Fin 1536 → EReal
  Uf : Fin 1024 → Fin 512 → EReal
  bi : Fin 1536 → EReal
  bf : Fin 512 → EReal

/-- One node's rows: its input, its eight neighbours' hidden and cell rows, its eight edge labels. -/
structure Node where
  x : Fin 512 → EReal
  h : Fin 8 → Fin 512 → EReal
  c : Fin 8 → Fin 512 → EReal
  e : Fin 8 → EReal

/-- A node whose hidden rows and edge labels are real numbers. -/
structure Node.IsReal (n : Node) : Prop where
  h : ∀ k j, ∃ r : ℝ, n.h k j = (r : EReal)
  e : ∀ k, ∃ r : ℝ, n.e k = (r : EReal)

/-! ## Positions -/

/-- Column `o` of the input gate inside the 1536 gate columns. -/
def gI (o : Fin 512) : Fin 1536 := ⟨o.val, by have := o.isLt; omega⟩
/-- Column `o` of the output gate: `512 + o`. -/
def gO (o : Fin 512) : Fin 1536 := ⟨512 + o.val, by have := o.isLt; omega⟩
/-- Column `o` of the update gate: `1024 + o`. -/
def gU (o : Fin 512) : Fin 1536 := ⟨1024 + o.val, by have := o.isLt; omega⟩
/-- Position `j` in the first half of a routed row. -/
def lo (j : Fin 512) : Fin 1024 := ⟨j.val, by have := j.isLt; omega⟩
/-- Position `j` in the second half of a routed row: `512 + j`. -/
def hi (j : Fin 512) : Fin 1024 := ⟨512 + j.val, by have := j.isLt; omega⟩

/-! ## The routed row of one neighbour -/

/-- The routed row with its first half written `h - e · h`. -/
def routedK (h : Fin 512 → EReal) (e : EReal) (d : Fin 1024) : EReal :=
  if hd : d.val < 512 then h ⟨d.val, hd⟩ - e * h ⟨d.val, hd⟩
  else e * h ⟨d.val - 512, by have := d.isLt; omega⟩

/-- The routed row with its first half written `(1 - e) · h`. -/
def routedR (h : Fin 512 → EReal) (e : EReal) (d : Fin 1024) : EReal :=
  if hd : d.val < 512 then (1 - e) * h ⟨d.val, hd⟩
  else e * h ⟨d.val - 512, by have := d.isLt; omega⟩

variable (W : Params) (n : Node)

/-! ## What both arrangements share -/

/-- `x · W_f` at column `o`. -/
def wfx (o : Fin 512) : EReal := ∑ j : Fin 512, n.x j * W.Wf j o
/-- `x · W_iou` at gate column `q`. -/
def ioux (q : Fin 1536) : EReal := ∑ j : Fin 512, n.x j * W.Wi j q

/-! ## The blocked arrangement -/

/-- `Σ_k h k` at position `j`. -/
def hsum (j : Fin 512) : EReal := ∑ k : Fin 8, n.h k j
/-- `Σ_k e k · h k` at position `j`. -/
def esum (j : Fin 512) : EReal := ∑ k : Fin 8, n.e k * n.h k j

/-- The neighbours' term of the gates, the sums over the neighbours taken first. -/
def ioumidK (q : Fin 1536) : EReal :=
  (∑ j : Fin 512, (hsum n j - esum n j) * W.Ui (lo j) q) + (∑ j : Fin 512, esum n j * W.Ui (hi j) q)

def iouK (q : Fin 1536) : EReal := (ioux W n q + ioumidK W n q) + W.bi q

/-- Neighbour `k`'s forget gate times its cell row, the bias added before the neighbour's term. -/
def gateK (k : Fin 8) (o : Fin 512) : EReal :=
  Ideal.logistic ((wfx W n o + W.bf o) + ∑ d : Fin 1024, routedK (n.h k) (n.e k) d * W.Uf d o) * n.c k o

/-- The eight products accumulated one after the other from zero. -/
def caggK (o : Fin 512) : EReal :=
  ((((((((0 + gateK W n 0 o) + gateK W n 1 o) + gateK W n 2 o) + gateK W n 3 o) + gateK W n 4 o) + gateK W n 5 o)
    + gateK W n 6 o) + gateK W n 7 o)

def cellK (o : Fin 512) : EReal :=
  Ideal.logistic (iouK W n (gI o)) * Ideal.tanh (iouK W n (gU o)) + caggK W n o

def hidK (o : Fin 512) : EReal := Ideal.logistic (iouK W n (gO o)) * Ideal.tanh (cellK W n o)

/-! ## The reference arrangement -/

/-- The routed rows summed over the neighbours (from zero), at position `d`. -/
def routedSum (d : Fin 1024) : EReal := 0 + ∑ k : Fin 8, routedR (n.h k) (n.e k) d

def ioumidR (q : Fin 1536) : EReal := ∑ d : Fin 1024, routedSum n d * W.Ui d q

def iouR (q : Fin 1536) : EReal := (ioux W n q + ioumidR W n q) + W.bi q

/-- Neighbour `k`'s forget gate times its cell row, the bias added last. -/
def gateR (k : Fin 8) (o : Fin 512) : EReal :=
  Ideal.logistic ((wfx W n o + ∑ d : Fin 1024, routedR (n.h k) (n.e k) d * W.Uf d o) + W.bf o) * n.c k o

def caggR (o : Fin 512) : EReal := 0 + ∑ k : Fin 8, gateR W n k o

def cellR (o : Fin 512) : EReal :=
  Ideal.logistic (iouR W n (gI o)) * Ideal.tanh (iouR W n (gU o)) + caggR W n o

def hidR (o : Fin 512) : EReal := Ideal.logistic (iouR W n (gO o)) * Ideal.tanh (cellR W n o)

/-! ## The two arrangements agree on real rows -/

/-- `(1 - e) · h = h - e · h` for real `e`, `h`. -/
theorem one_sub_mul_real (e h : ℝ) : (1 - (e : EReal)) * (h : EReal) = (h : EReal) - (e : EReal) * (h : EReal) := by
  rw [← EReal.coe_one, ← EReal.coe_sub, ← EReal.coe_mul, ← EReal.coe_mul, ← EReal.coe_sub]
  congr 1; ring

theorem routedR_eq_routedK {h : Fin 512 → EReal} {e : EReal} (hh : ∀ j, ∃ r : ℝ, h j = (r : EReal))
    (he : ∃ r : ℝ, e = (r : EReal)) (d : Fin 1024) : routedR h e d = routedK h e d := by
  unfold routedR routedK
  by_cases hd : d.val < 512
  · rw [dif_pos hd, dif_pos hd]
    obtain ⟨r, hr⟩ := hh ⟨d.val, hd⟩
    obtain ⟨s, hs⟩ := he
    rw [hr, hs]
    exact one_sub_mul_real s r
  · rw [dif_neg hd, dif_neg hd]

/-- `Σ_k (1 - a k) · b k = Σ_k b k - Σ_k a k · b k` for real `a`, `b`. -/
theorem sum_one_sub_mul (a b : Fin 8 → EReal) (ha : ∀ k, ∃ r : ℝ, a k = (r : EReal)) (hb : ∀ k, ∃ r : ℝ, b k = (r : EReal)) :
    ∑ k : Fin 8, (1 - a k) * b k = (∑ k : Fin 8, b k) - ∑ k : Fin 8, a k * b k := by
  choose ar har using ha
  choose br hbr using hb
  simp only [Fin.sum_univ_eight, har, hbr]
  simp only [← EReal.coe_one, ← EReal.coe_sub, ← EReal.coe_mul, ← EReal.coe_add]
  congr 1; ring

theorem routedSum_lo (hn : n.IsReal) (j : Fin 512) : routedSum n (lo j) = hsum n j - esum n j := by
  unfold routedSum hsum esum
  rw [zero_add]
  have e1 : ∀ k : Fin 8, routedR (n.h k) (n.e k) (lo j) = (1 - n.e k) * n.h k j := fun k => by
    unfold routedR
    rw [dif_pos (show (lo j).val < 512 from j.isLt)]
    rfl
  simp only [e1]
  exact sum_one_sub_mul (fun k => n.e k) (fun k => n.h k j) hn.e (fun k => hn.h k j)

theorem routedSum_hi (j : Fin 512) : routedSum n (hi j) = esum n j := by
  unfold routedSum esum
  rw [zero_add]
  refine Finset.sum_congr rfl fun k _ => ?_
  unfold routedR
  rw [dif_neg (show ¬ (hi j).val < 512 by show ¬ 512 + j.val < 512; omega)]
  refine congrArg (fun t => n.e k * n.h k t) (Fin.ext ?_)
  show 512 + j.val - 512 = j.val
  omega

/-- A sum over the 1024 positions of a routed row is the sum over its two halves. -/
theorem sum_halves (f : Fin 1024 → EReal) : ∑ d : Fin 1024, f d = (∑ j : Fin 512, f (lo j)) + ∑ j : Fin 512, f (hi j) := by
  have h := Fin.sum_univ_add (M := EReal) (a := 512) (b := 512) f
  refine h.trans ?_
  congr 1

theorem ioumidR_eq_ioumidK (hn : n.IsReal) (q : Fin 1536) : ioumidR W n q = ioumidK W n q := by
  unfold ioumidR ioumidK
  rw [sum_halves]
  simp only [routedSum_lo n hn, routedSum_hi n]

theorem iouR_eq_iouK (hn : n.IsReal) (q : Fin 1536) : iouR W n q = iouK W n q := by
  unfold iouR iouK
  rw [ioumidR_eq_ioumidK W n hn q]

theorem gateR_eq_gateK (hn : n.IsReal) (k : Fin 8) (o : Fin 512) : gateR W n k o = gateK W n k o := by
  unfold gateR gateK
  simp only [routedR_eq_routedK (hn.h k) (hn.e k)]
  rw [add_right_comm]

theorem caggR_eq_caggK (hn : n.IsReal) (o : Fin 512) : caggR W n o = caggK W n o := by
  unfold caggR caggK
  simp only [Fin.sum_univ_eight, gateR_eq_gateK W n hn, add_assoc]

theorem cellR_eq_cellK (hn : n.IsReal) (o : Fin 512) : cellR W n o = cellK W n o := by
  unfold cellR cellK
  rw [iouR_eq_iouK W n hn, iouR_eq_iouK W n hn, caggR_eq_caggK W n hn o]

theorem hidR_eq_hidK (hn : n.IsReal) (o : Fin 512) : hidR W n o = hidK W n o := by
  unfold hidR hidK
  rw [iouR_eq_iouK W n hn, cellR_eq_cellK W n hn o]

end Cert.TreeCell

end
-- ==== Proof.Rows.lean ====
/-
  Arrays as rows.  A node's data is row `r` of four arrays: `x` ([N, 512]), the neighbours' hidden and cell rows
  ([N, 8, 512] each) and the edge labels ([N, 8, 1]); the weights are whole arrays.  `nodeOf` and `paramsOf` read them off by
  coordinates, for any number of rows `N` — the whole arrays have 8192 rows, one grid point's blocks have 128 — so that a
  value of row `r` is stated as the cell function (Cell.lean) of `nodeOf … r`.
-/
import proofs.«101348_j32933809225898_2_alg».proof.Proof.Cell
import Idealize.ShloMosaic.Lib.ValueIdx

noncomputable section

namespace Cert.TreeCell

open Idealize.ShloMosaic Idealize.ShloMosaic.ValueIdx

/-- The weights read by coordinates. -/
def paramsOf (wi : (⟨2, ![512, 1536]⟩ : Shape).Idx → EReal) (wf : (⟨2, ![512, 512]⟩ : Shape).Idx → EReal)
    (ui : (⟨2, ![1024, 1536]⟩ : Shape).Idx → EReal) (uf : (⟨2, ![1024, 512]⟩ : Shape).Idx → EReal)
    (bi : (⟨1, ![1536]⟩ : Shape).Idx → EReal) (bf : (⟨1, ![512]⟩ : Shape).Idx → EReal) : Params where
  Wi j q := wi (ix2 j q)
  Wf j o := wf (ix2 j o)
  Ui d q := ui (ix2 d q)
  Uf d o := uf (ix2 d o)
  bi q := bi (ix1 q)
  bf o := bf (ix1 o)

/-- Row `r` of the node arrays. -/
def nodeOf {N : ℕ} (x : (⟨2, ![N, 512]⟩ : Shape).Idx → EReal) (h c : (⟨3, ![N, 8, 512]⟩ : Shape).Idx → EReal)
    (e : (⟨3, ![N, 8, 1]⟩ : Shape).Idx → EReal) (r : Fin N) : Node where
  x j := x (ix2 r j)
  h k j := h (ix3 r k j)
  c k j := c (ix3 r k j)
  e k := e (ix3 r k (0 : Fin 1))

/-- Arrays of real entries give real nodes. -/
theorem nodeOf_isReal {N : ℕ} (x : (⟨2, ![N, 512]⟩ : Shape).Idx → EReal) (h c : (⟨3, ![N, 8, 512]⟩ : Shape).Idx → EReal)
    (e : (⟨3, ![N, 8, 1]⟩ : Shape).Idx → EReal) (hh : ∀ i, ∃ r : ℝ, h i = (r : EReal)) (he : ∀ i, ∃ r : ℝ, e i = (r : EReal))
    (r : Fin N) : (nodeOf x h c e r).IsReal :=
  ⟨fun k j => hh (ix3 r k j), fun k => he (ix3 r k (0 : Fin 1))⟩

end Cert.TreeCell

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.LibRank3Layout.lean ====
/-
  Rank-3 arrays read at coordinates, for any extents and element type: what a kernel that keeps a batch of matrices
  `[a, b, c]` in one vector meets when it folds the two leading axes together for a matrix product, adds or drops a unit
  axis around a reduction that keeps its dimension, spreads a per-row or per-entry value back over the block, and reduces
  over the middle or the last axis.
  • FOLDED ROWS: `[a, b, c]` viewed as `[n, c]` with `n = a·b` and back — row `p·b + m` of the matrix is row `m` of slab `p`
    (`shapeCast_abc_nc_apply`, `shapeCast_nc_abc_apply`).
  • UNIT AXES ADDED: `[a, c] → [a, 1, c]` and `[a, b] → [a, b, 1]` (`shapeCast_ac_a1c_apply`, `shapeCast_ab_ab1_apply`).
  • SPREADS: `[a, 1, c] → [a, b, c]`, `[1, 1, c] → [a, b, c]`, `[a, b, 1] → [a, b, c]` read the operand with `0` on its unit axes
    (`broadcastTo_a1c_abc_apply`, `broadcastTo_11c_abc_apply`, `broadcastTo_ab1_abc_apply`).
  • REDUCTIONS over the extended reals: a sum over the last axis and over the middle axis as a `Fin`-indexed sum, a
    maximum over the middle axis as the fold of `max` from the starting value, on a vector unit
    (`multiReduction_add_last`, `multiReduction_add_mid`, `multiReduction_max_mid`) and for the host's
    `stablehlo.reduce` with a maximum body (`hostReduce_max_mid`).
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-! ## The two leading axes folded into one, and unfolded -/

/-- An `[a, b, c]` array viewed as `[n, c]` (`n = a·b`) reads, at row `r = p·b + m` and column `f`, the operand at `(p, m, f)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (m : Fin b) (f : Fin c) (r : Fin n)
    (hr : r.val = p.val * b + m.val) :
    shapeCast ⟨2, ![n, c]⟩ x h (ix2 r f) = x (ix3 p m f) :=
  shapeCast_apply x h _ _ (by
    rw [Shape.rowMajor_val_three, Shape.rowMajor_val_two]
    show (p.val * b + m.val) * c + f.val = r.val * c + f.val
    rw [hr])

/-- An `[n, c]` matrix (`n = a·b`) viewed as `[a, b, c]` reads, at `(p, m, f)`, the operand at row `r = p·b + m`, column `f`. -/
theorem shapeCast_nc_abc_apply {a b c n : ℕ} (x : (⟨2, ![n, c]⟩ : Shape).Idx → α)
    (h : (⟨2, ![n, c]⟩ : Shape).ShapeCasts ⟨3, ![a, b, c]⟩) (p : Fin a) (m : Fin b) (f : Fin c) (r : Fin n)
    (hr : r.val = p.val * b + m.val) :
    shapeCast ⟨3, ![a, b, c]⟩ x h (ix3 p m f) = x (ix2 r f) :=
  shapeCast_apply x h _ _ (by
    rw [Shape.rowMajor_val_three, Shape.rowMajor_val_two]
    show r.val * c + f.val = (p.val * b + m.val) * c + f.val
    rw [hr])

/-! ## A unit axis added in the middle or at the end -/

/-- An `[a, c]` matrix cast to `[a, 1, c]` reads, at `(p, u, f)`, the operand at `(p, f)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (f : Fin c) :
    shapeCast ⟨3, ![a, 1, c]⟩ x h (ix3 p u f) = x (ix2 p f) :=
  shapeCast_apply x h _ _ (by
    have hu : u.val = 0 := by omega
    rw [Shape.rowMajor_val_three, Shape.rowMajor_val_two]
    show p.val * c + f.val = (p.val * 1 + u.val) * c + f.val
    rw [hu, Nat.mul_one, Nat.add_zero])

/-- An `[a, b]` matrix cast to `[a, b, 1]` reads, at `(p, m, u)`, the operand at `(p, m)`. -/
theorem shapeCast_ab_ab1_apply {a b : ℕ} (x : (⟨2, ![a, b]⟩ : Shape).Idx → α)
    (h : (⟨2, ![a, b]⟩ : Shape).ShapeCasts ⟨3, ![a, b, 1]⟩) (p : Fin a) (m : Fin b) (u : Fin 1) :
    shapeCast ⟨3, ![a, b, 1]⟩ x h (ix3 p m u) = x (ix2 p m) :=
  shapeCast_apply x h _ _ (by
    have hu : u.val = 0 := by omega
    rw [Shape.rowMajor_val_three, Shape.rowMajor_val_two]
    show p.val * b + m.val = (p.val * b + m.val) * 1 + u.val
    rw [hu, Nat.mul_one, Nat.add_zero])

/-! ## A value spread over the block -/

/-- An `[a, 1, c]` array spread to `[a, b, c]` reads, at `(p, m, f)`, the operand at `(p, 0, f)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (m : Fin b) (f : Fin c) :
    broadcastTo ⟨3, ![a, b, c]⟩ x h (ix3 p m f) = x (ix3 p (0 : Fin 1) f) := by
  refine broadcastTo_apply x h (ix3 p m f) (ix3 p (0 : Fin 1) f) fun ax => ?_
  match ax with
  | ⟨0, _⟩ =>
    show p.val = if a = 1 then 0 else p.val
    split
    · have := p.isLt; omega
    · rfl
  | ⟨1, _⟩ => rfl
  | ⟨2, _⟩ =>
    show f.val = if c = 1 then 0 else f.val
    split
    · have := f.isLt; omega
    · rfl

/-- A `[1, 1, c]` array spread to `[a, b, c]` reads, at `(p, m, f)`, the operand's one row at `f`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (m : Fin b) (f : Fin c) :
    broadcastTo ⟨3, ![a, b, c]⟩ x h (ix3 p m f) = x (ix3 (0 : Fin 1) (0 : Fin 1) f) := by
  refine broadcastTo_apply x h (ix3 p m f) (ix3 (0 : Fin 1) (0 : Fin 1) f) fun ax => ?_
  match ax with
  | ⟨0, _⟩ => rfl
  | ⟨1, _⟩ => rfl
  | ⟨2, _⟩ =>
    show f.val = if c = 1 then 0 else f.val
    split
    · have := f.isLt; omega
    · rfl

/-- An `[a, b, 1]` array spread to `[a, b, c]` reads, at `(p, m, f)`, the operand at `(p, m, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (m : Fin b) (f : Fin c) :
    broadcastTo ⟨3, ![a, b, c]⟩ x h (ix3 p m f) = x (ix3 p m (0 : Fin 1)) := by
  refine broadcastTo_apply x h (ix3 p m f) (ix3 p m (0 : Fin 1)) fun ax => ?_
  match ax with
  | ⟨0, _⟩ =>
    show p.val = if a = 1 then 0 else p.val
    split
    · have := p.isLt; omega
    · rfl
  | ⟨1, _⟩ =>
    show m.val = if b = 1 then 0 else m.val
    split
    · have := m.isLt; omega
    · rfl
  | ⟨2, _⟩ => rfl

/-! ## Reductions of a rank-3 vector over one axis, on the extended reals -/

section Reductions
variable {φ : FTy}

/-- A sum over the LAST axis of an `[a, b, c]` vector at `(p, m)` is the sum over `k` of the source at `(p, m, k)`. -/
theorem multiReduction_add_last {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (m : Fin b) :
    multiReduction .add [2] ⟨2, ![a, b]⟩ src acc h hφ hacc (ix2 p m) = ∑ k : Fin c, src (ix3 p m k) :=
  (Ideal.multiReduction_add_single src acc h hφ hacc (ix2 p m)).trans
    (Finset.sum_congr rfl fun k _ => congrArg src (funext fun ax => Fin.ext (by
      match ax with
      | ⟨0, _⟩ => rfl
      | ⟨1, _⟩ => rfl
      | ⟨2, _⟩ => rfl)))

/-- A sum over the MIDDLE axis of an `[a, b, c]` vector at `(p, d)` is the sum over `k` of the source at `(p, k, d)`. -/
theorem multiReduction_add_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (d : Fin c) :
    multiReduction .add [1] ⟨2, ![a, c]⟩ src acc h hφ hacc (ix2 p d) = ∑ k : Fin b, src (ix3 p k d) :=
  (Ideal.multiReduction_add_single src acc h hφ hacc (ix2 p d)).trans
    (Finset.sum_congr rfl fun k _ => congrArg src (funext fun ax => Fin.ext (by
      match ax with
      | ⟨0, _⟩ => rfl
      | ⟨1, _⟩ => rfl
      | ⟨2, _⟩ => rfl)))

/-- A maximum over the MIDDLE axis of an `[a, b, c]` vector at `(p, d)` is the fold of `max`, from the starting word's
    value, over `k` of the source at `(p, k, d)`. -/
theorem multiReduction_max_mid {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (p : Fin a) (d : Fin c) :
    multiReduction .maximumf [1] ⟨2, ![a, c]⟩ src acc h hφ hacc (ix2 p d)
      = (Finset.univ : Finset (Fin b)).fold max (Ideal.ofBits φ acc) (fun k => src (ix3 p k d)) :=
  (Ideal.multiReduction_maximumf_single src acc h hφ hacc (ix2 p d)).trans
    (Finset.fold_congr fun k _ => congrArg src (funext fun ax => Fin.ext (by
      match ax with
      | ⟨0, _⟩ => rfl
      | ⟨1, _⟩ => rfl
      | ⟨2, _⟩ => rfl)))

/-- The host's `stablehlo.reduce` with a maximum body over the MIDDLE axis of an `[a, b, c]` array at `(p, d)`: the fold
    of `max`, from the initial value, over `k` of the operand at `(p, k, d)`. -/
theorem hostReduce_max_mid {a b c : ℕ} {u : Shape} (x : FVec Ideal ⟨3, ![a, b, c]⟩ φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (p : Fin a) (d : Fin c) :
    Host.reduce (FloatOps.maximumf (F := Ideal) (φ := φ)) x init h' hu (ix2 p d)
      = (Finset.univ : Finset (Fin b)).fold max (init (Shape.Idx.first hu)) (fun k => x (ix3 p k d)) :=
  (Host.reduce_eq_fold_single (FloatOps.maximumf (F := Ideal) (φ := φ)) x init h' h hu (ix2 p d)).trans
    (Finset.fold_congr fun k _ => congrArg x (funext fun ax => Fin.ext (by
      match ax with
      | ⟨0, _⟩ => rfl
      | ⟨1, _⟩ => rfl
      | ⟨2, _⟩ => rfl)))

end Reductions

end Cert.LibRank3

end
-- ==== Proof.LibMiddleUnit.lean ====
/-
  A unit axis inserted in the middle of a matrix shape, read at coordinates: an [a, b] array cast to [a, 1, b]
  (a per-row family of vectors laid out as one-row matrices, as a bias table b[k, :] reshaped to [k, 1, :]) reads,
  at (k, u, q), the operand at (k, q) — both sit at row-major position k · b + q.
-/
import Idealize.ShloMosaic.Lib.ValueIdx
import Idealize.ShloMosaic.Lib.Pipeline.Value

namespace Idealize.ShloMosaic.ValueIdx

variable {α : Type}

/-- An [a, b] array cast to [a, 1, b] reads, at (k, u, q), the operand at (k, q). -/
theorem shapeCast_ab_a1b_apply {a b : ℕ} (x : (⟨2, ![a, b]⟩ : Shape).Idx → α)
    (h : (⟨2, ![a, b]⟩ : Shape).ShapeCasts ⟨3, ![a, 1, b]⟩) (k : Fin a) (u : Fin 1) (q : Fin b) :
    shapeCast ⟨3, ![a, 1, b]⟩ x h (ix3 k u q) = x (ix2 k q) :=
  shapeCast_apply x h _ _ (by
    have hu : u.val = 0 := by omega
    rw [Shape.rowMajor_val_two, Shape.rowMajor_val_three]
    show k.val * b + q.val = (k.val * 1 + u.val) * b + q.val
    rw [hu, Nat.mul_one, Nat.add_zero])

/-- An [a, 1, b] array cast back to [a, b] reads, at (k, q), the operand at (k, 0, q). -/
theorem shapeCast_a1b_ab_apply {a b : ℕ} (x : (⟨3, ![a, 1, b]⟩ : Shape).Idx → α)
    (h : (⟨3, ![a, 1, b]⟩ : Shape).ShapeCasts ⟨2, ![a, b]⟩) (k : Fin a) (q : Fin b) :
    shapeCast ⟨2, ![a, b]⟩ x h (ix2 k q) = x (ix3 k (0 : Fin 1) q) :=
  shapeCast_apply x h _ _ (by
    rw [Shape.rowMajor_val_three, Shape.rowMajor_val_two]
    show (k.val * 1 + 0) * b + q.val = k.val * b + q.val
    rw [Nat.mul_one, Nat.add_zero])

end Idealize.ShloMosaic.ValueIdx
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.LibColumnsConcat.lean ====
/-
  Two matrices joined along their columns, read at coordinates, for any extents and element type: the [a, b₁ + b₂]
  matrix `[x₁ | x₂]` reads, at (p, d), `x₁` at (p, d) when `d < b₁` and `x₂` at (p, d - b₁) otherwise (what a kernel's
  `jnp.concatenate([x₁, x₂], axis=-1)` of two [a, ·] values needs); and an [a, 1, 1] array cast to the column [a, 1]
  reads, at (p, 0), the operand at (p, 0, 0) (a keepdims slice of an [a, k, 1] array with one unit axis dropped).
-/
import Idealize.ShloMosaic.Lib.ValueIdx
import Idealize.ShloMosaic.Lib.Pipeline.Value

namespace Idealize.ShloMosaic.ValueIdx

variable {α : Type}

/-- A column in the first piece: `[x₁ | x₂]` at (p, d) with `d < b₁` is `x₁` at (p, d). -/
theorem concatenate_cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : d.val < b₁) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₁ (ix2 p ⟨d.val, hd⟩) :=
  concatenate_pair_apply_left _ x₁ x₂ h (ix2 p d) rfl (ix2 p ⟨d.val, hd⟩)
    (fun c => match c with | ⟨0, _⟩ => rfl | ⟨1, _⟩ => rfl)

/-- A column in the second piece: `[x₁ | x₂]` at (p, d) with `b₁ ≤ d` is `x₂` at (p, d - b₁). -/
theorem concatenate_cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : b₁ ≤ d.val) (hd2 : d.val - b₁ < b₂) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₂ (ix2 p ⟨d.val - b₁, hd2⟩) :=
  concatenate_pair_apply_right _ x₁ x₂ h (ix2 p d) rfl rfl (ix2 p ⟨d.val - b₁, hd2⟩)
    (fun c hc => match c, hc with | ⟨0, _⟩, _ => rfl | ⟨1, _⟩, hc => absurd rfl hc)
    (by show d.val - b₁ + b₁ = d.val; omega)

/-- An [a, 1, 1] array cast to the column [a, 1] reads, at (p, 0), the operand at (p, 0, 0). -/
theorem shapeCast_a11_a1_apply {a : ℕ} (x : (⟨3, ![a, 1, 1]⟩ : Shape).Idx → α)
    (h : (⟨3, ![a, 1, 1]⟩ : Shape).ShapeCasts ⟨2, ![a, 1]⟩) (p : Fin a) :
    shapeCast ⟨2, ![a, 1]⟩ x h (ix2 p (0 : Fin 1)) = x (ix3 p (0 : Fin 1) (0 : Fin 1)) :=
  shapeCast_apply x h _ _ (by
    rw [Shape.rowMajor_val_three, Shape.rowMajor_val_two]
    show (p.val * 1 + 0) * 1 + 0 = p.val * 1 + 0
    omega)

end Idealize.ShloMosaic.ValueIdx
-- ==== Proof.KernelRows.lean ====
/-
  One grid point's block, read at coordinates.

  A grid point works on 128 nodes: the blocks `x` [128, 512], the neighbours' hidden and cell rows [128, 8, 512] and
  the edge labels [128, 8, 1], with the whole weights.  This module reads the pieces the block program is made of at a row
  `p` and a column:

  * neighbour `k`'s row of a [128, 8, 512] block (the slice at `k` with its unit axis dropped) and its label spread along the
    row;
  * the routed row `[h - e·h | e·h]` (a concatenation along the columns): column `d` is `Cert.TreeCell.routedK` of the
    neighbour's row and label;
  * one neighbour's step: the product of the routed row with `U_f` (a sum over the 1024 routed positions), the forget gate
    and its product with the neighbour's cell row.
-/
import proofs.«101348_j32933809225898_2_alg».proof.Proof.Gen.KernelIdeal.Frame
import proofs.«101348_j32933809225898_2_alg».proof.Proof.Rows
import proofs.«101348_j32933809225898_2_alg».proof.Proof.LibMatmul
import proofs.«101348_j32933809225898_2_alg».proof.Proof.LibRank3Layout
import proofs.«101348_j32933809225898_2_alg».proof.Proof.LibMiddleUnit
import proofs.«101348_j32933809225898_2_alg».proof.Proof.LibColumns
import proofs.«101348_j32933809225898_2_alg».proof.Proof.LibColumnsConcat
import Idealize.ShloMosaic.Lib.Pipeline.Value
import Idealize.ShloMosaic.Lib.ValueLayout
import Idealize.ShloMosaic.PureOps.Ideal.Laws

noncomputable section

open scoped BigOperators

namespace Cert.KernelRows

open Cert.KernelIdeal Cert.KernelIdeal.Gen Idealize.ShloMosaic Idealize.ShloMosaic.ValueIdx Cert.TreeCell Cert.LibRank3

/-! ## One neighbour's pieces as vectors -/

/-- Neighbour `k`'s rows of a [128, 8, 512] block, as a [128, 512] block. -/
def rowOf (k : ℕ) (hs : S128x8x512.Slices ![0, k, 0] S128x1x512) (v : FVec Ideal S128x8x512 .f32) : FVec Ideal S128x512 .f32 :=
  shapeCast S128x512 (extractStridedSlice S128x1x512 ![0, k, 0] v hs) shapeCasts_S128x1x512_S128x512

/-- Neighbour `k`'s labels, one per node, spread along the 512 columns. -/
def labelOf (k : ℕ) (hs : S128x8x1.Slices ![0, k, 0] S128x1x1) (v : FVec Ideal S128x8x1 .f32) : FVec Ideal S128x512 .f32 :=
  broadcastTo S128x512 (shapeCast S128x1 (extractStridedSlice S128x1x1 ![0, k, 0] v hs) shapeCasts_S128x1x1_S128x1)
    broadcasts_S128x1_S128x512

/-- The routed rows `[h - e·h | e·h]` of one neighbour. -/
def routedOf (hk ek : FVec Ideal S128x512 .f32) : FVec Ideal S128x1024 .f32 :=
  concatenate S128x1024 1 [⟨S128x512, subf hk (mulf ek hk)⟩, ⟨S128x512, mulf ek hk⟩]
    concatenates_S128x512_S128x512_S128x1024_d1

/-- One neighbour's step: the forget gate of `pre + routed · U_f` times the neighbour's cell rows. -/
def gateOf (pre : FVec Ideal S128x512 .f32) (two : FVec Ideal S128x1024 .f32) (uf : FVec Ideal S1024x512 .bf16)
    (ck : FVec Ideal S128x512 .f32) : FVec Ideal S128x512 .f32 :=
  mulf (logistic (addf pre (matmul dot_S128x1024_S1024x512_S128x512_1_0_0_1_n_n none (truncf .bf16 two bitsLt_bf16_f32)
    (shapeCast S1024x512 uf shapeCasts_S1024x512_S1024x512) (constant S128x512 .f32 0x00000000#32)))) ck

/-! ## The pieces at coordinates -/

theorem rowOf_apply (k : ℕ) (hk : k < 8) (hs : S128x8x512.Slices ![0, k, 0] S128x1x512) (v : FVec Ideal S128x8x512 .f32)
    (p : Fin 128) (o : Fin 512) : rowOf k hs v (ix2 p o) = v (ix3 p ⟨k, hk⟩ o) := by
  unfold rowOf
  refine (shapeCast_a1b_ab_apply _ shapeCasts_S128x1x512_S128x512 p o).trans ?_
  refine extractStridedSlice_apply ![0, k, 0] v hs (ix3 p (0 : Fin 1) o) (ix3 p ⟨k, hk⟩ o) fun a => ?_
  match a with
  | ⟨0, _⟩ => show p.val = 0 + p.val; omega
  | ⟨1, _⟩ => show k = k + 0; omega
  | ⟨2, _⟩ => show o.val = 0 + o.val; omega

theorem labelOf_apply (k : ℕ) (hk : k < 8) (hs : S128x8x1.Slices ![0, k, 0] S128x1x1) (v : FVec Ideal S128x8x1 .f32)
    (p : Fin 128) (o : Fin 512) : labelOf k hs v (ix2 p o) = v (ix3 p ⟨k, hk⟩ (0 : Fin 1)) := by
  unfold labelOf
  refine (broadcastTo_a1_ab_apply _ broadcasts_S128x1_S128x512 p o).trans ?_
  refine (shapeCast_a11_a1_apply _ shapeCasts_S128x1x1_S128x1 p).trans ?_
  refine extractStridedSlice_apply ![0, k, 0] v hs (ix3 p (0 : Fin 1) (0 : Fin 1)) (ix3 p ⟨k, hk⟩ (0 : Fin 1)) fun a => ?_
  match a with
  | ⟨0, _⟩ => show p.val = 0 + p.val; omega
  | ⟨1, _⟩ => show k = k + 0; omega
  | ⟨2, _⟩ => show 0 = 0 + 0; omega

/-- The routed rows at a column: the first half `h - e·h`, the second half `e·h` at the column less 512. -/
theorem routedOf_apply (hk ek : FVec Ideal S128x512 .f32) (p : Fin 128) (d : Fin 1024) :
    routedOf hk ek (ix2 p d)
      = if hd : d.val < 512 then hk (ix2 p ⟨d.val, hd⟩) - ek (ix2 p ⟨d.val, hd⟩) * hk (ix2 p ⟨d.val, hd⟩)
        else ek (ix2 p ⟨d.val - 512, by have := d.isLt; omega⟩) * hk (ix2 p ⟨d.val - 512, by have := d.isLt; omega⟩) := by
  unfold routedOf
  by_cases hd : d.val < 512
  · rw [dif_pos hd]
    refine (concatenate_cols_left _ _ concatenates_S128x512_S128x512_S128x1024_d1 p d hd).trans ?_
    rfl
  · rw [dif_neg hd]
    have hd2 : d.val - 512 < 512 := by have := d.isLt; omega
    refine (concatenate_cols_right _ _ concatenates_S128x512_S128x512_S128x1024_d1 p d (by omega) hd2).trans ?_
    rfl

/-- Neighbour `k`'s routed row at node `p` is `routedK` of its hidden row and its label. -/
theorem routed_apply (k : ℕ) (hk : k < 8) (hs12 : S128x8x512.Slices ![0, k, 0] S128x1x512)
    (hs14 : S128x8x1.Slices ![0, k, 0] S128x1x1) (v12 : FVec Ideal S128x8x512 .f32) (v14 : FVec Ideal S128x8x1 .f32)
    (p : Fin 128) (d : Fin 1024) :
    routedOf (rowOf k hs12 v12) (labelOf k hs14 v14) (ix2 p d)
      = routedK (fun j => v12 (ix3 p ⟨k, hk⟩ j)) (v14 (ix3 p ⟨k, hk⟩ (0 : Fin 1))) d := by
  rw [routedOf_apply]
  unfold routedK
  by_cases hd : d.val < 512
  · rw [dif_pos hd, dif_pos hd, rowOf_apply k hk, labelOf_apply k hk]
  · rw [dif_neg hd, dif_neg hd, rowOf_apply k hk, labelOf_apply k hk]

/-- One neighbour's step at (p, o): the product with `U_f` is the sum over the 1024 routed positions. -/
theorem gateOf_apply (pre : FVec Ideal S128x512 .f32) (two : FVec Ideal S128x1024 .f32) (uf : FVec Ideal S1024x512 .bf16)
    (ck : FVec Ideal S128x512 .f32) (p : Fin 128) (o : Fin 512) :
    gateOf pre two uf ck (ix2 p o)
      = Ideal.logistic (pre (ix2 p o) + ∑ d : Fin 1024, two (ix2 p d) * uf (ix2 d o)) * ck (ix2 p o) := by
  have e := matmul_zero_ix2 dot_S128x1024_S1024x512_S128x512_1_0_0_1_n_n rfl rfl rfl rfl rfl rfl none
    (truncf .bf16 two bitsLt_bf16_f32) (shapeCast S1024x512 uf shapeCasts_S1024x512_S1024x512) p o
  refine (congrArg (fun t => Ideal.logistic (pre (ix2 p o) + t) * ck (ix2 p o)) e).trans ?_
  rw [shapeCast_self]
  rfl

/-- Neighbour `k`'s step at (p, o), over the block's own entries. -/
theorem step_apply (k : ℕ) (hk : k < 8) (hs12 : S128x8x512.Slices ![0, k, 0] S128x1x512)
    (hs14 : S128x8x1.Slices ![0, k, 0] S128x1x1) (pre : FVec Ideal S128x512 .f32) (v12 v13 : FVec Ideal S128x8x512 .f32)
    (v14 : FVec Ideal S128x8x1 .f32) (uf : FVec Ideal S1024x512 .bf16) (p : Fin 128) (o : Fin 512) :
    gateOf pre (routedOf (rowOf k hs12 v12) (labelOf k hs14 v14)) uf (rowOf k hs12 v13) (ix2 p o)
      = Ideal.logistic (pre (ix2 p o)
          + ∑ d : Fin 1024, routedK (fun j => v12 (ix3 p ⟨k, hk⟩ j)) (v14 (ix3 p ⟨k, hk⟩ (0 : Fin 1))) d * uf (ix2 d o))
        * v13 (ix3 p ⟨k, hk⟩ o) := by
  rw [gateOf_apply, rowOf_apply k hk]
  simp only [routed_apply k hk]

end Cert.KernelRows

end
-- ==== Proof.KernelGates.lean ====
/-
  The gates of one grid point's block, read at coordinates.

  * `x · W_f + b_f` at (p, o): a sum over the 512 input positions plus the bias (the bias is a vector cast to one row and
    spread over the 128 rows);
  * the sums over the eight neighbours `Σ_k h k` and `Σ_k e k · h k` (sums over the middle axis of a [128, 8, 512] block;
    the labels are spread along the 512 columns first);
  * the 1536 gate columns `x · W_iou + ((Σh - Σe·h) · U_iou[0:512] + (Σe·h) · U_iou[512:1024])`, plus the bias;
  * the three gate slices: columns `o`, `512 + o` and `1024 + o` of the 1536.
-/
import proofs.«101348_j32933809225898_2_alg».proof.Proof.KernelRows

noncomputable section

open scoped BigOperators

namespace Cert.KernelGates

open Cert.KernelIdeal Cert.KernelIdeal.Gen Idealize.ShloMosaic Idealize.ShloMosaic.ValueIdx Cert.TreeCell Cert.LibRank3

/-! ## The sums over the neighbours -/

/-- `Σ_k h k` of a block. -/
def hsumVec (v12 : FVec Ideal S128x8x512 .f32) : FVec Ideal S128x512 .f32 :=
  multiReduction .add [1] S128x512 v12 0x00000000#32 reduces_S128x8x512_S128x512 (.inl rfl) rfl

/-- `Σ_k e k · h k` of a block. -/
def esumVec (v12 : FVec Ideal S128x8x512 .f32) (v14 : FVec Ideal S128x8x1 .f32) : FVec Ideal S128x512 .f32 :=
  multiReduction .add [1] S128x512 (mulf (broadcastTo S128x8x512 v14 broadcasts_S128x8x1_S128x8x512) v12) 0x00000000#32
    reduces_S128x8x512_S128x512 (.inl rfl) rfl

theorem hsumVec_apply (v12 : FVec Ideal S128x8x512 .f32) (p : Fin 128) (j : Fin 512) :
    hsumVec v12 (ix2 p j) = ∑ k : Fin 8, v12 (ix3 p k j) := by
  unfold hsumVec
  exact multiReduction_add_mid v12 _ _ _ _ p j

theorem esumVec_apply (v12 : FVec Ideal S128x8x512 .f32) (v14 : FVec Ideal S128x8x1 .f32) (p : Fin 128) (j : Fin 512) :
    esumVec v12 v14 (ix2 p j) = ∑ k : Fin 8, v14 (ix3 p k (0 : Fin 1)) * v12 (ix3 p k j) := by
  unfold esumVec
  refine (multiReduction_add_mid _ _ _ _ _ p j).trans ?_
  refine Finset.sum_congr rfl fun k _ => ?_
  show (broadcastTo S128x8x512 v14 broadcasts_S128x8x1_S128x8x512) (ix3 p k j) * v12 (ix3 p k j) = _
  rw [broadcastTo_ab1_abc_apply]

/-! ## `x · W_f + b_f` -/

theorem pay3_apply (v0 : FVec Ideal S128x512 .f32) (v2 : FVec Ideal S512x512 .bf16) (v8 : FVec Ideal S512 .f32)
    (p : Fin 128) (o : Fin 512) :
    k0_pay3 (F := Ideal) v0 v2 v8 (ix2 p o) = (∑ j : Fin 512, v0 (ix2 p j) * v2 (ix2 j o)) + v8 (ix1 o) := by
  have e1 := matmul_zero_ix2 dot_S128x512_S512x512_S128x512_1_0_0_1_n_n rfl rfl rfl rfl rfl rfl none
    (truncf .bf16 v0 bitsLt_bf16_f32) (shapeCast S512x512 v2 shapeCasts_S512x512_S512x512) p o
  have e2 : broadcastTo S128x512 (shapeCast S1x512 v8 shapeCasts_S512_S1x512) broadcasts_S1x512_S128x512 (ix2 p o)
      = v8 (ix1 o) :=
    (broadcastTo_1b_ab_apply _ _ p o).trans (shapeCast_a_1a_apply v8 _ 0 o)
  refine (congrArg₂ (· + ·) e1 e2).trans ?_
  rw [shapeCast_self]
  rfl

/-! ## The 1536 gate columns -/

theorem pay4_apply (v0 : FVec Ideal S128x512 .f32) (v5 : FVec Ideal S512x1536 .bf16) (v12 : FVec Ideal S128x8x512 .f32)
    (v14 : FVec Ideal S128x8x1 .f32) (v21 v25 : FVec Ideal S512x1536 .bf16) (p : Fin 128) (q : Fin 1536) :
    k0_pay4 (F := Ideal) v0 v5 v12 v14 v21 v25 (ix2 p q)
      = (∑ j : Fin 512, v0 (ix2 p j) * v5 (ix2 j q))
        + ((∑ j : Fin 512, ((∑ k : Fin 8, v12 (ix3 p k j)) - ∑ k : Fin 8, v14 (ix3 p k (0 : Fin 1)) * v12 (ix3 p k j))
              * v21 (ix2 j q))
          + ∑ j : Fin 512, (∑ k : Fin 8, v14 (ix3 p k (0 : Fin 1)) * v12 (ix3 p k j)) * v25 (ix2 j q)) := by
  have e1 := matmul_zero_ix2 dot_S128x512_S512x1536_S128x1536_1_0_0_1_n_n rfl rfl rfl rfl rfl rfl none
    (truncf .bf16 v0 bitsLt_bf16_f32) (shapeCast S512x1536 v5 shapeCasts_S512x1536_S512x1536) p q
  have e2 := matmul_zero_ix2 dot_S128x512_S512x1536_S128x1536_1_0_0_1_n_n rfl rfl rfl rfl rfl rfl none
    (truncf .bf16 (subf (hsumVec v12) (esumVec v12 v14)) bitsLt_bf16_f32)
    (shapeCast S512x1536 v21 shapeCasts_S512x1536_S512x1536) p q
  have e3 := matmul_zero_ix2 dot_S128x512_S512x1536_S128x1536_1_0_0_1_n_n rfl rfl rfl rfl rfl rfl none
    (truncf .bf16 (esumVec v12 v14) bitsLt_bf16_f32) (shapeCast S512x1536 v25 shapeCasts_S512x1536_S512x1536) p q
  refine (congrArg₂ (· + ·) e1 (congrArg₂ (· + ·) e2 e3)).trans ?_
  simp only [shapeCast_self, truncf_apply, subf_apply, hsumVec_apply, esumVec_apply]

/-- The gate columns with the bias added: the bias is a vector cast to one row and spread over the rows. -/
theorem pay6_apply (v29 : FVec Ideal S128x1536 .f32) (v30 : FVec Ideal S1536 .f32) (p : Fin 128) (q : Fin 1536) :
    k0_pay6 (F := Ideal) v29 (k0_pay5 v30) (ix2 p q) = v29 (ix2 p q) + v30 (ix1 q) := by
  have e2 : broadcastTo S128x1536 (shapeCast S1x1536 v30 shapeCasts_S1536_S1x1536) broadcasts_S1x1536_S128x1536 (ix2 p q)
      = v30 (ix1 q) :=
    (broadcastTo_1b_ab_apply _ _ p q).trans (shapeCast_a_1a_apply v30 _ 0 q)
  exact congrArg (v29 (ix2 p q) + ·) e2

/-! ## The three gate slices -/

/-- 512 columns from column `off` on: column `o` of the slice is column `off + o`. -/
theorem slice_apply (off : ℕ) (hs : S128x1536.Slices ![0, off] S128x512) (v : FVec Ideal S128x1536 .f32) (p : Fin 128)
    (o : Fin 512) (q : Fin 1536) (hq : q.val = off + o.val) :
    extractStridedSlice S128x512 ![0, off] v hs (ix2 p o) = v (ix2 p q) :=
  extractStridedSlice_apply ![0, off] v hs (ix2 p o) (ix2 p q) fun a =>
    match a with
    | ⟨0, _⟩ => by show p.val = 0 + p.val; omega
    | ⟨1, _⟩ => hq

theorem pay7_apply (v29 : FVec Ideal S128x1536 .f32) (v31 : FVec Ideal S1x1536 .f32) (p : Fin 128) (o : Fin 512) :
    k0_pay7 (F := Ideal) v29 v31 (ix2 p o) = Ideal.logistic (k0_pay6 v29 v31 (ix2 p (gI o))) :=
  congrArg Ideal.logistic (slice_apply 0 slices_S128x1536_o0_0_S128x512 (k0_pay6 v29 v31) p o (gI o)
    (by show o.val = 0 + o.val; omega))

theorem pay8_apply (v29 : FVec Ideal S128x1536 .f32) (v31 : FVec Ideal S1x1536 .f32) (p : Fin 128) (o : Fin 512) :
    k0_pay8 (F := Ideal) v29 v31 (ix2 p o) = Ideal.logistic (k0_pay6 v29 v31 (ix2 p (gO o))) :=
  congrArg Ideal.logistic (slice_apply 512 slices_S128x1536_o0_512_S128x512 (k0_pay6 v29 v31) p o (gO o) rfl)

theorem pay9_apply (v29 : FVec Ideal S128x1536 .f32) (v31 : FVec Ideal S1x1536 .f32) (p : Fin 128) (o : Fin 512) :
    k0_pay9 (F := Ideal) v29 v31 (ix2 p o) = Ideal.tanh (k0_pay6 v29 v31 (ix2 p (gU o))) :=
  congrArg Ideal.tanh (slice_apply 1024 slices_S128x1536_o0_1024_S128x512 (k0_pay6 v29 v31) p o (gU o) rfl)

/-! ## The two halves of `U_iou` -/

/-- Rows 0 … 511 of `U_iou`: row `j` is row `lo j`. -/
theorem ld_lo (x6 : Vec Ideal S1024x1536 .bf16) (j : Fin 512) (q : Fin 1536) :
    View.ld (Val := Elt Ideal) (e' := .bf16) x6 r0_6 (ix2 j q : S512x1536.Idx) = x6 (ix2 (lo j) q) :=
  congrArg x6 (funext fun a => Fin.ext (by
    match a with
    | ⟨0, _⟩ => show 0 + 1 * j.val = j.val; omega
    | ⟨1, _⟩ => show 0 + 1 * q.val = q.val; omega))

/-- Rows 512 … 1023 of `U_iou`: row `j` is row `hi j`. -/
theorem ld_hi (x6 : Vec Ideal S1024x1536 .bf16) (j : Fin 512) (q : Fin 1536) :
    View.ld (Val := Elt Ideal) (e' := .bf16) x6 r0_7 (ix2 j q : S512x1536.Idx) = x6 (ix2 (hi j) q) :=
  congrArg x6 (funext fun a => Fin.ext (by
    match a with
    | ⟨0, _⟩ => show 512 + 1 * j.val = 512 + j.val; omega
    | ⟨1, _⟩ => show 0 + 1 * q.val = q.val; omega))

end Cert.KernelGates

end
-- ==== Proof.KernelBlock.lean ====
/-
  What one grid point leaves in its two output blocks, read at a node `p` of the block and a column `o`: the cell state
  is `Cert.TreeCell.cellK` and the hidden state `Cert.TreeCell.hidK` of the node's rows (row `p` of the four node blocks)
  and the weights.

  The block program computes, in this order: `pre = x · W_f + b_f`; the 1536 gate columns `iou`; the accumulator
  `0 + step 0 + step 1`, then `+ step 2 + step 3 + step 4`, then `+ step 5 + step 6 + step 7`, where `step k` is
  neighbour `k`'s forget gate (of `pre` plus the routed row times `U_f`) times the neighbour's cell row; the cell state
  `σ(iou[0:512]) ⊙ tanh(iou[1024:1536]) + accumulator`; the hidden state `σ(iou[512:1024]) ⊙ tanh(cell state)`.
  Each stage is first restated over the named pieces of KernelRows.lean (equal by unfolding, the stage's inputs being
  variables), then read at (p, o) with the coordinate lemmas of KernelRows.lean and KernelGates.lean.
-/
import proofs.«101348_j32933809225898_2_alg».proof.Proof.KernelGates

noncomputable section

open scoped BigOperators

namespace Cert.KernelBlock

open Cert.KernelIdeal Cert.KernelIdeal.Gen Idealize.ShloMosaic Idealize.ShloMosaic.ValueIdx Cert.TreeCell
open Cert.KernelRows Cert.KernelGates

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The stages over the named pieces -/

/-- The accumulator after neighbours 0 and 1. -/
theorem pay10_eq (v11 : FVec Ideal S128x512 .f32) (v12 v13 : FVec Ideal S128x8x512 .f32) (v14 : FVec Ideal S128x8x1 .f32)
    (v50 v68 : FVec Ideal S1024x512 .bf16) :
    k0_pay10 (F := Ideal) v11 v12 v13 v14 v50 v68
      = addf (addf (broadcast S128x512 (Scalar.ofBits (F := Ideal) .f32 0x00000000#32)) (gateOf v11 (routedOf (rowOf 0 slices_S128x8x512_o0_0_0_S128x1x512 v12) (labelOf 0 slices_S128x8x1_o0_0_0_S128x1x1 v14)) v50 (rowOf 0 slices_S128x8x512_o0_0_0_S128x1x512 v13)))
          (gateOf v11 (routedOf (rowOf 1 slices_S128x8x512_o0_1_0_S128x1x512 v12) (labelOf 1 slices_S128x8x1_o0_1_0_S128x1x1 v14)) v68 (rowOf 1 slices_S128x8x512_o0_1_0_S128x1x512 v13)) := rfl

/-- Neighbour 2's routed rows. -/
theorem pay11_eq (v12 : FVec Ideal S128x8x512 .f32) (v14 : FVec Ideal S128x8x1 .f32) :
    k0_pay11 (F := Ideal) v12 v14 = routedOf (rowOf 2 slices_S128x8x512_o0_2_0_S128x1x512 v12) (labelOf 2 slices_S128x8x1_o0_2_0_S128x1x1 v14) := rfl

/-- The accumulator after neighbours 2, 3 and 4. -/
theorem pay12_eq (v11 : FVec Ideal S128x512 .f32) (v12 v13 : FVec Ideal S128x8x512 .f32) (v14 : FVec Ideal S128x8x1 .f32)
    (v76 : FVec Ideal S128x512 .f32) (v84 : FVec Ideal S128x1024 .f32) (v86 v104 v122 : FVec Ideal S1024x512 .bf16) :
    k0_pay12 (F := Ideal) v11 v12 v13 v14 v76 v84 v86 v104 v122
      = addf (addf (addf v76 (gateOf v11 v84 v86 (rowOf 2 slices_S128x8x512_o0_2_0_S128x1x512 v13))) (gateOf v11 (routedOf (rowOf 3 slices_S128x8x512_o0_3_0_S128x1x512 v12) (labelOf 3 slices_S128x8x1_o0_3_0_S128x1x1 v14)) v104 (rowOf 3 slices_S128x8x512_o0_3_0_S128x1x512 v13)))
          (gateOf v11 (routedOf (rowOf 4 slices_S128x8x512_o0_4_0_S128x1x512 v12) (labelOf 4 slices_S128x8x1_o0_4_0_S128x1x1 v14)) v122 (rowOf 4 slices_S128x8x512_o0_4_0_S128x1x512 v13)) := rfl

/-- Neighbour 5's hidden rows, and its labels spread along the columns. -/
theorem pay13_eq (v12 : FVec Ideal S128x8x512 .f32) : k0_pay13 (F := Ideal) v12 = rowOf 5 slices_S128x8x512_o0_5_0_S128x1x512 v12 := rfl
theorem pay14_eq (v14 : FVec Ideal S128x8x1 .f32) : k0_pay14 (F := Ideal) v14 = labelOf 5 slices_S128x8x1_o0_5_0_S128x1x1 v14 := rfl

/-- The cell state: the gates' product plus the accumulator after neighbours 5, 6 and 7. -/
theorem pay15_eq (v11 : FVec Ideal S128x512 .f32) (v12 v13 : FVec Ideal S128x8x512 .f32) (v14 : FVec Ideal S128x8x1 .f32)
    (v35 v39 v130 v132 v135 : FVec Ideal S128x512 .f32) (v140 v158 v176 : FVec Ideal S1024x512 .bf16) :
    k0_pay15 (F := Ideal) v11 v12 v13 v14 v35 v39 v130 v132 v135 v140 v158 v176
      = addf (mulf v35 v39)
          (addf (addf (addf v130 (gateOf v11 (routedOf v132 v135) v140 (rowOf 5 slices_S128x8x512_o0_5_0_S128x1x512 v13)))
            (gateOf v11 (routedOf (rowOf 6 slices_S128x8x512_o0_6_0_S128x1x512 v12) (labelOf 6 slices_S128x8x1_o0_6_0_S128x1x1 v14)) v158 (rowOf 6 slices_S128x8x512_o0_6_0_S128x1x512 v13))) (gateOf v11 (routedOf (rowOf 7 slices_S128x8x512_o0_7_0_S128x1x512 v12) (labelOf 7 slices_S128x8x1_o0_7_0_S128x1x1 v14)) v176 (rowOf 7 slices_S128x8x512_o0_7_0_S128x1x512 v13))) := rfl

/-- The hidden state: the output gate times `tanh` of the cell state. -/
theorem pay1_eq (v37 v186 : FVec Ideal S128x512 .f32) : k0_pay1 (F := Ideal) v37 v186 = mulf v37 (tanh v186) := rfl

theorem tanh_apply (v : FVec Ideal S128x512 .f32) (i : S128x512.Idx) : tanh v i = Ideal.tanh (v i) := rfl

/-! ## The cell state at (p, o) -/

/-- The stored cell state — the stages composed over the ten loaded blocks, `U_iou` loaded as its two halves — at node
    `p`, column `o`, is the cell function of the node's rows. -/
theorem cellPay_apply (x0 : FVec Ideal S128x512 .f32) (x1 x2 : FVec Ideal S128x8x512 .f32) (x3 : FVec Ideal S128x8x1 .f32)
    (x4 : FVec Ideal S512x1536 .bf16) (x5 : FVec Ideal S512x512 .bf16) (x6 : FVec Ideal S1024x1536 .bf16)
    (x7 : FVec Ideal S1024x512 .bf16) (x8 : FVec Ideal S1536 .f32) (x9 : FVec Ideal S512 .f32) (p : Fin 128) (o : Fin 512) :
    k0_pay15 (F := Ideal) (k0_pay3 x0 x5 x9) x1 x2 x3 (k0_pay7 (k0_pay4 x0 x4 x1 x3 (View.ld (Val := Elt Ideal) (e' := .bf16) x6 r0_6) (View.ld (Val := Elt Ideal) (e' := .bf16) x6 r0_7)) (k0_pay5 x8)) (k0_pay9 (k0_pay4 x0 x4 x1 x3 (View.ld (Val := Elt Ideal) (e' := .bf16) x6 r0_6) (View.ld (Val := Elt Ideal) (e' := .bf16) x6 r0_7)) (k0_pay5 x8)) (k0_pay12 (k0_pay3 x0 x5 x9) x1 x2 x3 (k0_pay10 (k0_pay3 x0 x5 x9) x1 x2 x3 x7 x7) (k0_pay11 x1 x3) x7 x7 x7) (k0_pay13 x1) (k0_pay14 x3) x7 x7 x7 (ix2 p o)
      = cellK (paramsOf x4 x5 x6 x7 x8 x9) (nodeOf x0 x1 x2 x3 p) o := by
  rw [pay15_eq, pay12_eq, pay10_eq, pay11_eq, pay13_eq, pay14_eq]
  simp only [addf_apply, mulf_apply, broadcast_apply]
  rw [step_apply 0 (by omega), step_apply 1 (by omega), step_apply 2 (by omega), step_apply 3 (by omega),
    step_apply 4 (by omega), step_apply 5 (by omega), step_apply 6 (by omega), step_apply 7 (by omega)]
  simp only [pay7_apply, pay9_apply, pay6_apply, pay4_apply, pay3_apply]
  unfold cellK caggK gateK iouK ioumidK ioux wfx hsum esum
  dsimp only [paramsOf, nodeOf]
  have hlo : ∀ (j : Fin 512) (q : Fin 1536),
      View.ld (Val := Elt Ideal) (e' := .bf16) x6 r0_6 (ix2 j q) = x6 (ix2 (lo j) q) := ld_lo x6
  have hhi : ∀ (j : Fin 512) (q : Fin 1536),
      View.ld (Val := Elt Ideal) (e' := .bf16) x6 r0_7 (ix2 j q) = x6 (ix2 (hi j) q) := ld_hi x6
  have hzero : FloatOps.ofBits (F := Ideal) .f32 0x00000000#32 = (0 : EReal) := Ideal.ofBits_zero_f32
  rw [hzero]
  simp only [hlo, hhi]
  rfl

/-- What a grid point leaves in the cell-state block. -/
theorem out11_apply (x0 : FVec Ideal S128x512 .f32) (x1 x2 : FVec Ideal S128x8x512 .f32) (x3 : FVec Ideal S128x8x1 .f32)
    (x4 : FVec Ideal S512x1536 .bf16) (x5 : FVec Ideal S512x512 .bf16) (x6 : FVec Ideal S1024x1536 .bf16)
    (x7 : FVec Ideal S1024x512 .bf16) (x8 : FVec Ideal S1536 .f32) (x9 : FVec Ideal S512 .f32) (p : Fin 128) (o : Fin 512) :
    out0_11 (F := Ideal) x0 x1 x2 x3 x4 x5 x6 x7 x8 x9 (ix2 p o)
      = cellK (paramsOf x4 x5 x6 x7 x8 x9) (nodeOf x0 x1 x2 x3 p) o := by
  unfold out0_11
  rw [View.canon_unit_zero hz2]
  simp only [View.ld_unit_zero (S := S128x512) hz2, View.ld_unit_zero (S := S512x512) hz2,
    View.ld_unit_zero (S := S512x1536) hz2, View.ld_unit_zero (S := S1024x512) hz2,
    View.ld_unit_zero (S := S128x8x512) hz3, View.ld_unit_zero (S := S128x8x1) hz3,
    View.ld_unit_zero (S := S1536) hz1, View.ld_unit_zero (S := S512) hz1]
  exact cellPay_apply x0 x1 x2 x3 x4 x5 x6 x7 x8 x9 p o

/-- What a grid point leaves in the hidden-state block. -/
theorem out10_apply (x0 : FVec Ideal S128x512 .f32) (x1 x2 : FVec Ideal S128x8x512 .f32) (x3 : FVec Ideal S128x8x1 .f32)
    (x4 : FVec Ideal S512x1536 .bf16) (x5 : FVec Ideal S512x512 .bf16) (x6 : FVec Ideal S1024x1536 .bf16)
    (x7 : FVec Ideal S1024x512 .bf16) (x8 : FVec Ideal S1536 .f32) (x9 : FVec Ideal S512 .f32) (p : Fin 128) (o : Fin 512) :
    out0_10 (F := Ideal) x0 x1 x2 x3 x4 x5 x6 x7 x8 x9 (ix2 p o)
      = hidK (paramsOf x4 x5 x6 x7 x8 x9) (nodeOf x0 x1 x2 x3 p) o := by
  unfold out0_10
  rw [View.canon_unit_zero hz2]
  simp only [View.ld_unit_zero (S := S128x512) hz2, View.ld_unit_zero (S := S512x512) hz2,
    View.ld_unit_zero (S := S512x1536) hz2, View.ld_unit_zero (S := S1024x512) hz2,
    View.ld_unit_zero (S := S128x8x512) hz3, View.ld_unit_zero (S := S128x8x1) hz3,
    View.ld_unit_zero (S := S1536) hz1, View.ld_unit_zero (S := S512) hz1]
  rw [pay1_eq]
  simp only [mulf_apply, tanh_apply]
  rw [cellPay_apply x0 x1 x2 x3 x4 x5 x6 x7 x8 x9 p o]
  simp only [pay8_apply, pay6_apply, pay4_apply]
  unfold hidK iouK ioumidK ioux hsum esum
  dsimp only [paramsOf, nodeOf]
  have hlo : ∀ (j : Fin 512) (q : Fin 1536),
      View.ld (Val := Elt Ideal) (e' := .bf16) x6 r0_6 (ix2 j q) = x6 (ix2 (lo j) q) := ld_lo x6
  have hhi : ∀ (j : Fin 512) (q : Fin 1536),
      View.ld (Val := Elt Ideal) (e' := .bf16) x6 r0_7 (ix2 j q) = x6 (ix2 (hi j) q) := ld_hi x6
  simp only [hlo, hhi]

end Cert.KernelBlock

end
-- ==== Proof.KernelArray.lean ====
/-
  FROM BLOCKS TO THE ARRAYS.

  The kernel visits the 8192 nodes in 64 grid points of 128 rows each. At point t it reads block t (rows 128·t … 128·t + 127)
  of the four node arrays — the inputs [8192, 512], the neighbours' hidden and cell rows [8192, 8, 512], the edge labels
  [8192, 8, 1] — and the six weight arrays whole, and writes block t of the two result arrays [8192, 512]. The block-level
  value lemmas say that entry (p, o) of what a point writes is the hidden / cell function of the node read from row p of its
  blocks. Here that is carried to the arrays:

    · a block's element sits in its array, on each axis, at block index × block size + its coordinate inside the block; the
      block indices are decided once over the 64 points: t along the rows and 0 elsewhere for the row-blocked arrays, 0 on
      every axis for the weights. So row p of point t's blocks is row 128·t + p of the arrays, and a weight block is its array;
    · the four weight matrices reach the region through a change of float format, which is the identity on extended reals;
    · hence what point t writes back is block t of ONE function of the argument arrays (`hidArr`, `cellArr`: entry (r, o) is
      the hidden / cell function of row r);
    · row r lies in the block of point r / 128, so the 64 blocks fill the arrays and nothing keeps its entry contents;
    · therefore after the run the two result arrays are `hidArr` and `cellArr` of the arguments as launched, and the
      arguments are unchanged.
-/
import proofs.«101348_j32933809225898_2_alg».proof.Proof.Gen.KernelIdeal.Frame
import proofs.«101348_j32933809225898_2_alg».proof.Proof.KernelBlocksP
import proofs.«101348_j32933809225898_2_alg».proof.Proof.KernelBlock
import proofs.«101348_j32933809225898_2_alg».proof.Proof.Rows
import Idealize.ShloMosaic.Lib.Pipeline.Value
import Idealize.ShloMosaic.Lib.ValueIdx
import Idealize.ShloMosaic.Lib.Tactic

set_option maxRecDepth 16384

noncomputable section

namespace Cert.KernelArray

open Cert.KernelIdeal Cert.KernelIdeal.Gen Idealize.ShloMosaic Idealize.ShloMosaic.ValueIdx Idealize.SL.Sem Cert.TreeCell
open Idealize.ShloMosaic.TcCoe
open Idealize.ShloMosaic.Pipeline (Dat)

variable (m : (ℓ : Loc nD τ sig) → Buf (Elt Ideal) ℓ) (ρ : Dev nD → PrngReg)

/-! ## The printed index maps, decided over the grid -/

/-- Point t's block of each row-blocked window (the four node arrays and the two results) is block t along
    the rows and block 0 along every other axis. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- The six weight windows stay at block 0 on every axis: each block is the whole array. -/
theorem idx_facts_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0
    ∧ win0_9.index t (0 : Fin 1) = 0 :=
  (by decide +kernel : ∀ t : Fin grid0.N, _)

/-- Row p of block t is row 128·t + p of the array, and there are 64 · 128 = 8192 of them. -/
theorem row_lt (t : Fin cfg0.N) (p : Fin 128) : 128 * t.val + p.val < 8192 := by
  have hN : cfg0.N = 64 := N_0
  have ht := t.isLt
  have hp := p.isLt
  omega

/-- Row p of block t, as a row of the whole array. -/
def rowOf (t : Fin cfg0.N) (p : Fin 128) : Fin 8192 := ⟨128 * t.val + p.val, row_lt t p⟩

/-! ## What the region finds in the four converted weight arrays -/

theorem V_main_v0 (c : Dev nD) : (V m c main_v0 : S512x1536.Idx → EReal) = m ((c : Thread nD τ).loc main_arg4) := by
  dsimp only [Gen.V, Gen.hostOps0]; after_results; rfl
theorem V_main_v1 (c : Dev nD) : (V m c main_v1 : S512x512.Idx → EReal) = m ((c : Thread nD τ).loc main_arg5) := by
  dsimp only [Gen.V, Gen.hostOps0]; after_results; rfl
theorem V_main_v2 (c : Dev nD) : (V m c main_v2 : S1024x1536.Idx → EReal) = m ((c : Thread nD τ).loc main_arg6) := by
  dsimp only [Gen.V, Gen.hostOps0]; after_results; rfl
theorem V_main_v3 (c : Dev nD) : (V m c main_v3 : S1024x512.Idx → EReal) = m ((c : Thread nD τ).loc main_arg7) := by
  dsimp only [Gen.V, Gen.hostOps0]; after_results; rfl

/-! ## Each window's block at a point, read off its array -/

theorem blk0_apply (c : Dev nD) (t : Fin cfg0.N) (p : Fin 128) (j : Fin 512) :
    (iblk m c 0 t : S128x512.Idx → EReal) (ix2 p j) = (V m c main_arg0 : S8192x512.Idx → EReal) (ix2 (rowOf t p) j) := by
  obtain ⟨e0, e1, -⟩ := idx_facts t
  have he : ((cfg0.win 0).blk t).view.emb (ix2 p j) = (ix2 (rowOf t p) j : S8192x512.Idx) := by
    funext a; apply Fin.ext
    match a with
    | ⟨0, _⟩ => show win0_0.index t (0 : Fin 2) * 128 + 1 * p.val = 128 * t.val + p.val; omega
    | ⟨1, _⟩ => show win0_0.index t (1 : Fin 2) * 512 + 1 * j.val = j.val; omega
  show V m c main_arg0 (((cfg0.win 0).blk t).view.emb (ix2 p j)) = _
  rw [he]

theorem blk1_apply (c : Dev nD) (t : Fin cfg0.N) (p : Fin 128) (k : Fin 8) (j : Fin 512) :
    (iblk m c 1 t : S128x8x512.Idx → EReal) (ix3 p k j) = (V m c main_arg1 : S8192x8x512.Idx → EReal) (ix3 (rowOf t p) k j) := by
  obtain ⟨-, -, e0, e1, e2, -⟩ := idx_facts t
  have he : ((cfg0.win 1).blk t).view.emb (ix3 p k j) = (ix3 (rowOf t p) k j : S8192x8x512.Idx) := by
    funext a; apply Fin.ext
    match a with
    | ⟨0, _⟩ => show win0_1.index t (0 : Fin 3) * 128 + 1 * p.val = 128 * t.val + p.val; omega
    | ⟨1, _⟩ => show win0_1.index t (1 : Fin 3) * 8 + 1 * k.val = k.val; omega
    | ⟨2, _⟩ => show win0_1.index t (2 : Fin 3) * 512 + 1 * j.val = j.val; omega
  show V m c main_arg1 (((cfg0.win 1).blk t).view.emb (ix3 p k j)) = _
  rw [he]

theorem blk2_apply (c : Dev nD) (t : Fin cfg0.N) (p : Fin 128) (k : Fin 8) (j : Fin 512) :
    (iblk m c 2 t : S128x8x512.Idx → EReal) (ix3 p k j) = (V m c main_arg2 : S8192x8x512.Idx → EReal) (ix3 (rowOf t p) k j) := by
  obtain ⟨-, -, -, -, -, e0, e1, e2, -⟩ := idx_facts t
  have he : ((cfg0.win 2).blk t).view.emb (ix3 p k j) = (ix3 (rowOf t p) k j : S8192x8x512.Idx) := by
    funext a; apply Fin.ext
    match a with
    | ⟨0, _⟩ => show win0_2.index t (0 : Fin 3) * 128 + 1 * p.val = 128 * t.val + p.val; omega
    | ⟨1, _⟩ => show win0_2.index t (1 : Fin 3) * 8 + 1 * k.val = k.val; omega
    | ⟨2, _⟩ => show win0_2.index t (2 : Fin 3) * 512 + 1 * j.val = j.val; omega
  show V m c main_arg2 (((cfg0.win 2).blk t).view.emb (ix3 p k j)) = _
  rw [he]

theorem blk3_apply (c : Dev nD) (t : Fin cfg0.N) (p : Fin 128) (k : Fin 8) (z : Fin 1) :
    (iblk m c 3 t : S128x8x1.Idx → EReal) (ix3 p k z) = (V m c main_arg3 : S8192x8x1.Idx → EReal) (ix3 (rowOf t p) k z) := by
  obtain ⟨-, -, -, -, -, -, -, -, e0, e1, e2, -⟩ := idx_facts t
  have he : ((cfg0.win 3).blk t).view.emb (ix3 p k z) = (ix3 (rowOf t p) k z : S8192x8x1.Idx) := by
    funext a; apply Fin.ext
    match a with
    | ⟨0, _⟩ => show win0_3.index t (0 : Fin 3) * 128 + 1 * p.val = 128 * t.val + p.val; omega
    | ⟨1, _⟩ => show win0_3.index t (1 : Fin 3) * 8 + 1 * k.val = k.val; omega
    | ⟨2, _⟩ => show win0_3.index t (2 : Fin 3) * 1 + 1 * z.val = z.val; omega
  show V m c main_arg3 (((cfg0.win 3).blk t).view.emb (ix3 p k z)) = _
  rw [he]

/-- A weight window's block is its whole array: the block index is 0 on every axis, so an element of the block sits
    at its own coordinates. -/
theorem blk4_eq (c : Dev nD) (t : Fin cfg0.N) : (iblk m c 4 t : S512x1536.Idx → EReal) = V m c main_v0 := by
  obtain ⟨e0, e1, -⟩ := idx_facts_whole t
  funext y
  have he : ((cfg0.win 4).blk t).view.emb y = (y : S512x1536.Idx) := by
    funext a; apply Fin.ext
    match a with
    | ⟨0, _⟩ => show win0_4.index t (0 : Fin 2) * 512 + 1 * (y 0).val = (y 0).val; omega
    | ⟨1, _⟩ => show win0_4.index t (1 : Fin 2) * 1536 + 1 * (y 1).val = (y 1).val; omega
  show V m c main_v0 (((cfg0.win 4).blk t).view.emb y) = _
  rw [he]

theorem blk5_eq (c : Dev nD) (t : Fin cfg0.N) : (iblk m c 5 t : S512x512.Idx → EReal) = V m c main_v1 := by
  obtain ⟨-, -, e0, e1, -⟩ := idx_facts_whole t
  funext y
  have he : ((cfg0.win 5).blk t).view.emb y = (y : S512x512.Idx) := by
    funext a; apply Fin.ext
    match a with
    | ⟨0, _⟩ => show win0_5.index t (0 : Fin 2) * 512 + 1 * (y 0).val = (y 0).val; omega
    | ⟨1, _⟩ => show win0_5.index t (1 : Fin 2) * 512 + 1 * (y 1).val = (y 1).val; omega
  show V m c main_v1 (((cfg0.win 5).blk t).view.emb y) = _
  rw [he]

theorem blk6_eq (c : Dev nD) (t : Fin cfg0.N) : (iblk m c 6 t : S1024x1536.Idx → EReal) = V m c main_v2 := by
  obtain ⟨-, -, -, -, e0, e1, -⟩ := idx_facts_whole t
  funext y
  have he : ((cfg0.win 6).blk t).view.emb y = (y : S1024x1536.Idx) := by
    funext a; apply Fin.ext
    match a with
    | ⟨0, _⟩ => show win0_6.index t (0 : Fin 2) * 1024 + 1 * (y 0).val = (y 0).val; omega
    | ⟨1, _⟩ => show win0_6.index t (1 : Fin 2) * 1536 + 1 * (y 1).val = (y 1).val; omega
  show V m c main_v2 (((cfg0.win 6).blk t).view.emb y) = _
  rw [he]

theorem blk7_eq (c : Dev nD) (t : Fin cfg0.N) : (iblk m c 7 t : S1024x512.Idx → EReal) = V m c main_v3 := by
  obtain ⟨-, -, -, -, -, -, e0, e1, -⟩ := idx_facts_whole t
  funext y
  have he : ((cfg0.win 7).blk t).view.emb y = (y : S1024x512.Idx) := by
    funext a; apply Fin.ext
    match a with
    | ⟨0, _⟩ => show win0_7.index t (0 : Fin 2) * 1024 + 1 * (y 0).val = (y 0).val; omega
    | ⟨1, _⟩ => show win0_7.index t (1 : Fin 2) * 512 + 1 * (y 1).val = (y 1).val; omega
  show V m c main_v3 (((cfg0.win 7).blk t).view.emb y) = _
  rw [he]

theorem blk8_eq (c : Dev nD) (t : Fin cfg0.N) : (iblk m c 8 t : S1536.Idx → EReal) = V m c main_arg8 := by
  obtain ⟨-, -, -, -, -, -, -, -, e0, -⟩ := idx_facts_whole t
  funext y
  have he : ((cfg0.win 8).blk t).view.emb y = (y : S1536.Idx) := by
    funext a; apply Fin.ext
    match a with
    | ⟨0, _⟩ => show win0_8.index t (0 : Fin 1) * 1536 + 1 * (y 0).val = (y 0).val; omega
  show V m c main_arg8 (((cfg0.win 8).blk t).view.emb y) = _
  rw [he]

theorem blk9_eq (c : Dev nD) (t : Fin cfg0.N) : (iblk m c 9 t : S512.Idx → EReal) = V m c main_arg9 := by
  obtain ⟨-, -, -, -, -, -, -, -, -, e0⟩ := idx_facts_whole t
  funext y
  have he : ((cfg0.win 9).blk t).view.emb y = (y : S512.Idx) := by
    funext a; apply Fin.ext
    match a with
    | ⟨0, _⟩ => show win0_9.index t (0 : Fin 1) * 512 + 1 * (y 0).val = (y 0).val; omega
  show V m c main_arg9 (((cfg0.win 9).blk t).view.emb y) = _
  rw [he]

/-! ## Rows of blocks are rows of the arrays -/

/-- Two families of node arrays with the same entries along one row of each give the same node. -/
theorem nodeOf_congr {N M : ℕ} (x : (⟨2, ![N, 512]⟩ : Shape).Idx → EReal) (h c : (⟨3, ![N, 8, 512]⟩ : Shape).Idx → EReal)
    (e : (⟨3, ![N, 8, 1]⟩ : Shape).Idx → EReal) (x' : (⟨2, ![M, 512]⟩ : Shape).Idx → EReal)
    (h' c' : (⟨3, ![M, 8, 512]⟩ : Shape).Idx → EReal) (e' : (⟨3, ![M, 8, 1]⟩ : Shape).Idx → EReal) (r : Fin N) (r' : Fin M)
    (hx : ∀ j, x (ix2 r j) = x' (ix2 r' j)) (hh : ∀ k j, h (ix3 r k j) = h' (ix3 r' k j))
    (hc : ∀ k j, c (ix3 r k j) = c' (ix3 r' k j)) (he : ∀ k, e (ix3 r k (0 : Fin 1)) = e' (ix3 r' k (0 : Fin 1))) :
    nodeOf x h c e r = nodeOf x' h' c' e' r' := by
  unfold nodeOf
  simp only [hx, hh, hc, he]

/-- The node of row p of point t's blocks is the node of row 128·t + p of the arrays. -/
theorem node_blocks (c : Dev nD) (t : Fin cfg0.N) (p : Fin 128) :
    nodeOf (iblk m c 0 t : S128x512.Idx → EReal) (iblk m c 1 t : S128x8x512.Idx → EReal)
        (iblk m c 2 t : S128x8x512.Idx → EReal) (iblk m c 3 t : S128x8x1.Idx → EReal) p
      = nodeOf (V m c main_arg0 : S8192x512.Idx → EReal) (V m c main_arg1 : S8192x8x512.Idx → EReal)
        (V m c main_arg2 : S8192x8x512.Idx → EReal) (V m c main_arg3 : S8192x8x1.Idx → EReal) (rowOf t p) :=
  nodeOf_congr _ _ _ _ _ _ _ _ p (rowOf t p) (fun j => blk0_apply m c t p j) (fun k j => blk1_apply m c t p k j)
    (fun k j => blk2_apply m c t p k j) (fun k => blk3_apply m c t p k 0)

/-- The weights read from point t's blocks are the weights read from the arrays. -/
theorem params_blocks (c : Dev nD) (t : Fin cfg0.N) :
    paramsOf (iblk m c 4 t : S512x1536.Idx → EReal) (iblk m c 5 t : S512x512.Idx → EReal)
        (iblk m c 6 t : S1024x1536.Idx → EReal) (iblk m c 7 t : S1024x512.Idx → EReal)
        (iblk m c 8 t : S1536.Idx → EReal) (iblk m c 9 t : S512.Idx → EReal)
      = paramsOf (V m c main_v0 : S512x1536.Idx → EReal) (V m c main_v1 : S512x512.Idx → EReal)
        (V m c main_v2 : S1024x1536.Idx → EReal) (V m c main_v3 : S1024x512.Idx → EReal)
        (V m c main_arg8 : S1536.Idx → EReal) (V m c main_arg9 : S512.Idx → EReal) := by
  rw [blk4_eq m c t, blk5_eq m c t, blk6_eq m c t, blk7_eq m c t, blk8_eq m c t, blk9_eq m c t]

/-! ## The two result arrays as functions of the argument arrays -/

/-- The cell state of every node: entry (r, o) is the cell function of row r. -/
def cellArr (a0 : FVec Ideal S8192x512 .f32) (a1 a2 : FVec Ideal S8192x8x512 .f32) (a3 : FVec Ideal S8192x8x1 .f32)
    (a4 : FVec Ideal S512x1536 .f32) (a5 : FVec Ideal S512x512 .f32) (a6 : FVec Ideal S1024x1536 .f32)
    (a7 : FVec Ideal S1024x512 .f32) (a8 : FVec Ideal S1536 .f32) (a9 : FVec Ideal S512 .f32) : FVec Ideal S8192x512 .f32 :=
  fun i => cellK (paramsOf a4 a5 a6 a7 a8 a9) (nodeOf a0 a1 a2 a3 (⟨(i 0).val, idx2_lt0 i⟩ : Fin 8192)) (⟨(i 1).val, idx2_lt1 i⟩ : Fin 512)

/-- The hidden state of every node: entry (r, o) is the hidden function of row r. -/
def hidArr (a0 : FVec Ideal S8192x512 .f32) (a1 a2 : FVec Ideal S8192x8x512 .f32) (a3 : FVec Ideal S8192x8x1 .f32)
    (a4 : FVec Ideal S512x1536 .f32) (a5 : FVec Ideal S512x512 .f32) (a6 : FVec Ideal S1024x1536 .f32)
    (a7 : FVec Ideal S1024x512 .f32) (a8 : FVec Ideal S1536 .f32) (a9 : FVec Ideal S512 .f32) : FVec Ideal S8192x512 .f32 :=
  fun i => hidK (paramsOf a4 a5 a6 a7 a8 a9) (nodeOf a0 a1 a2 a3 (⟨(i 0).val, idx2_lt0 i⟩ : Fin 8192)) (⟨(i 1).val, idx2_lt1 i⟩ : Fin 512)

theorem cellArr_apply (a0 : FVec Ideal S8192x512 .f32) (a1 a2 : FVec Ideal S8192x8x512 .f32) (a3 : FVec Ideal S8192x8x1 .f32)
    (a4 : FVec Ideal S512x1536 .f32) (a5 : FVec Ideal S512x512 .f32) (a6 : FVec Ideal S1024x1536 .f32)
    (a7 : FVec Ideal S1024x512 .f32) (a8 : FVec Ideal S1536 .f32) (a9 : FVec Ideal S512 .f32) (r : Fin 8192) (o : Fin 512) :
    cellArr a0 a1 a2 a3 a4 a5 a6 a7 a8 a9 (ix2 r o) = cellK (paramsOf a4 a5 a6 a7 a8 a9) (nodeOf a0 a1 a2 a3 r) o := rfl

theorem hidArr_apply (a0 : FVec Ideal S8192x512 .f32) (a1 a2 : FVec Ideal S8192x8x512 .f32) (a3 : FVec Ideal S8192x8x1 .f32)
    (a4 : FVec Ideal S512x1536 .f32) (a5 : FVec Ideal S512x512 .f32) (a6 : FVec Ideal S1024x1536 .f32)
    (a7 : FVec Ideal S1024x512 .f32) (a8 : FVec Ideal S1536 .f32) (a9 : FVec Ideal S512 .f32) (r : Fin 8192) (o : Fin 512) :
    hidArr a0 a1 a2 a3 a4 a5 a6 a7 a8 a9 (ix2 r o) = hidK (paramsOf a4 a5 a6 a7 a8 a9) (nodeOf a0 a1 a2 a3 r) o := rfl

/-! ## What each point writes back is its block of the result arrays -/

/-- Entry (p, o) of point t's block of a result array is entry (128·t + p, o) of the array. -/
theorem emb10 (t : Fin cfg0.N) (p : Fin 128) (o : Fin 512) :
    ((cfg0.win 10).blk t).view.emb (ix2 p o) = (ix2 (rowOf t p) o : S8192x512.Idx) := by
  obtain ⟨-, -, -, -, -, -, -, -, -, -, -, e0, e1, -⟩ := idx_facts t
  funext a; apply Fin.ext
  match a with
  | ⟨0, _⟩ => show win0_10.index t (0 : Fin 2) * 128 + 1 * p.val = 128 * t.val + p.val; omega
  | ⟨1, _⟩ => show win0_10.index t (1 : Fin 2) * 512 + 1 * o.val = o.val; omega

theorem emb11 (t : Fin cfg0.N) (p : Fin 128) (o : Fin 512) :
    ((cfg0.win 11).blk t).view.emb (ix2 p o) = (ix2 (rowOf t p) o : S8192x512.Idx) := by
  obtain ⟨-, -, -, -, -, -, -, -, -, -, -, -, -, e0, e1⟩ := idx_facts t
  funext a; apply Fin.ext
  match a with
  | ⟨0, _⟩ => show win0_11.index t (0 : Fin 2) * 128 + 1 * p.val = 128 * t.val + p.val; omega
  | ⟨1, _⟩ => show win0_11.index t (1 : Fin 2) * 512 + 1 * o.val = o.val; omega

/-- WHAT POINT t WRITES BACK to the cell-state array is block t of the cell function of the arrays as the region finds them. -/
theorem flushed11_eq (c : Dev nD) (t : Fin cfg0.N) :
    (dats m 0 c).flushed 11 t = ((cfg0.win 11).blk t).view.read (Elt Ideal)
      (cellArr (V m c main_arg0) (V m c main_arg1) (V m c main_arg2) (V m c main_arg3) (V m c main_v0) (V m c main_v1) (V m c main_v2) (V m c main_v3) (V m c main_arg8) (V m c main_arg9)) := by
  rw [Cert.KernelIdeal.ValueP.flushed11]
  funext y
  obtain ⟨p, o, rfl⟩ : ∃ (p : Fin 128) (o : Fin 512), y = ix2 p o := ⟨y 0, y 1, eq_ix2 y⟩
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p o)
    = cellArr (V m c main_arg0) (V m c main_arg1) (V m c main_arg2) (V m c main_arg3) (V m c main_v0) (V m c main_v1) (V m c main_v2) (V m c main_v3) (V m c main_arg8) (V m c main_arg9) (((cfg0.win 11).blk t).view.emb (ix2 p o))
  refine (Cert.KernelBlock.out11_apply (iblk m c 0 t) (iblk m c 1 t) (iblk m c 2 t) (iblk m c 3 t) (iblk m c 4 t) (iblk m c 5 t) (iblk m c 6 t) (iblk m c 7 t) (iblk m c 8 t) (iblk m c 9 t) p o).trans ?_
  rw [emb11 t p o, cellArr_apply, params_blocks m c t, node_blocks m c t p]

/-- WHAT POINT t WRITES BACK to the hidden-state array is block t of the hidden function of the arrays as the region finds them. -/
theorem flushed10_eq (c : Dev nD) (t : Fin cfg0.N) :
    (dats m 0 c).flushed 10 t = ((cfg0.win 10).blk t).view.read (Elt Ideal)
      (hidArr (V m c main_arg0) (V m c main_arg1) (V m c main_arg2) (V m c main_arg3) (V m c main_v0) (V m c main_v1) (V m c main_v2) (V m c main_v3) (V m c main_arg8) (V m c main_arg9)) := by
  rw [Cert.KernelIdeal.ValueP.flushed10]
  funext y
  obtain ⟨p, o, rfl⟩ : ∃ (p : Fin 128) (o : Fin 512), y = ix2 p o := ⟨y 0, y 1, eq_ix2 y⟩
  show out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 p o)
    = hidArr (V m c main_arg0) (V m c main_arg1) (V m c main_arg2) (V m c main_arg3) (V m c main_v0) (V m c main_v1) (V m c main_v2) (V m c main_v3) (V m c main_arg8) (V m c main_arg9) (((cfg0.win 10).blk t).view.emb (ix2 p o))
  refine (Cert.KernelBlock.out10_apply (iblk m c 0 t) (iblk m c 1 t) (iblk m c 2 t) (iblk m c 3 t) (iblk m c 4 t) (iblk m c 5 t) (iblk m c 6 t) (iblk m c 7 t) (iblk m c 8 t) (iblk m c 9 t) p o).trans ?_
  rw [emb10 t p o, hidArr_apply, params_blocks m c t, node_blocks m c t p]

/-! ## The blocks fill the arrays -/

/-- An index of the array is in point t's block iff each coordinate is in the block's range on its axis. -/
theorem mem_blk10 (t : Fin cfg0.N) (i : S8192x512.Idx) :
    i ∈ ((cfg0.win 10).blk t).view.set ↔ ∀ a : Fin 2, win0_10.index t a * S128x512.size a ≤ (i a).val ∧ (i a).val < win0_10.index t a * S128x512.size a + S128x512.size a := by
  show i ∈ ((View.whole main_v4_0).slice (win0_10.rect t)).set ↔ _
  rw [View.set_slice_whole, Rect.mem_set_unit]
  exact Iff.rfl

theorem mem_blk11 (t : Fin cfg0.N) (i : S8192x512.Idx) :
    i ∈ ((cfg0.win 11).blk t).view.set ↔ ∀ a : Fin 2, win0_11.index t a * S128x512.size a ≤ (i a).val ∧ (i a).val < win0_11.index t a * S128x512.size a + S128x512.size a := by
  show i ∈ ((View.whole main_v4_1).slice (win0_11.rect t)).set ↔ _
  rw [View.set_slice_whole, Rect.mem_set_unit]
  exact Iff.rfl

/-- The point whose block holds row r is r / 128: there are 8192 / 128 = 64 of them. -/
def pointOf (i : S8192x512.Idx) : Fin cfg0.N :=
  ⟨(i 0).val / 128, by have hN : cfg0.N = 64 := N_0; have h0 : (i 0).val < 8192 := idx2_lt0 i; omega⟩

/-- EVERY INDEX IS COVERED: row r lies in the block of point r / 128, which spans all 512 columns. -/
theorem cover10 (i : S8192x512.Idx) : ∃ t : Fin cfg0.N, (cfg0.win 10).flush t = true ∧ i ∈ ((cfg0.win 10).blk t).view.set := by
  have h0 : (i 0).val < 8192 := idx2_lt0 i
  have h1 : (i 1).val < 512 := idx2_lt1 i
  have ht : (pointOf i).val = (i 0).val / 128 := rfl
  obtain ⟨-, -, -, -, -, -, -, -, -, -, -, e0, e1, -⟩ := idx_facts (pointOf i)
  refine ⟨pointOf i, flush0_10 (pointOf i), ?_⟩
  rw [mem_blk10]
  intro a
  match a with
  | ⟨0, _⟩ => show win0_10.index (pointOf i) (0 : Fin 2) * 128 ≤ (i 0).val ∧ (i 0).val < win0_10.index (pointOf i) (0 : Fin 2) * 128 + 128; omega
  | ⟨1, _⟩ => show win0_10.index (pointOf i) (1 : Fin 2) * 512 ≤ (i 1).val ∧ (i 1).val < win0_10.index (pointOf i) (1 : Fin 2) * 512 + 512; omega

theorem cover11 (i : S8192x512.Idx) : ∃ t : Fin cfg0.N, (cfg0.win 11).flush t = true ∧ i ∈ ((cfg0.win 11).blk t).view.set := by
  have h0 : (i 0).val < 8192 := idx2_lt0 i
  have h1 : (i 1).val < 512 := idx2_lt1 i
  have ht : (pointOf i).val = (i 0).val / 128 := rfl
  obtain ⟨-, -, -, -, -, -, -, -, -, -, -, -, -, e0, e1⟩ := idx_facts (pointOf i)
  refine ⟨pointOf i, flush0_11 (pointOf i), ?_⟩
  rw [mem_blk11]
  intro a
  match a with
  | ⟨0, _⟩ => show win0_11.index (pointOf i) (0 : Fin 2) * 128 ≤ (i 0).val ∧ (i 0).val < win0_11.index (pointOf i) (0 : Fin 2) * 128 + 128; omega
  | ⟨1, _⟩ => show win0_11.index (pointOf i) (1 : Fin 2) * 512 ≤ (i 1).val ∧ (i 1).val < win0_11.index (pointOf i) (1 : Fin 2) * 512 + 512; omega

/-! ## The arrays after the run -/

/-- THE HIDDEN-STATE ARRAY after the run: the hidden function of the arguments as launched, row by row. -/
theorem final10 (c : Dev nD) : (dats m 0 c).arrAt 10 cfg0.N = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := (dats m 0 c).arrAt_eq_of_cover 10 (hidArr (V m c main_arg0) (V m c main_arg1) (V m c main_arg2) (V m c main_arg3) (V m c main_v0) (V m c main_v1) (V m c main_v2) (V m c main_v3) (V m c main_arg8) (V m c main_arg9)) (fun t _ => flushed10_eq m c t) cover10
  rw [h, V_main_arg0, V_main_arg1, V_main_arg2, V_main_arg3, V_main_v0, V_main_v1, V_main_v2, V_main_v3, V_main_arg8, V_main_arg9]

/-- THE CELL-STATE ARRAY after the run: the cell function of the arguments as launched, row by row. -/
theorem final11 (c : Dev nD) : (dats m 0 c).arrAt 11 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := (dats m 0 c).arrAt_eq_of_cover 11 (cellArr (V m c main_arg0) (V m c main_arg1) (V m c main_arg2) (V m c main_arg3) (V m c main_v0) (V m c main_v1) (V m c main_v2) (V m c main_v3) (V m c main_arg8) (V m c main_arg9)) (fun t _ => flushed11_eq m c t) cover11
  rw [h, V_main_arg0, V_main_arg1, V_main_arg2, V_main_arg3, V_main_v0, V_main_v1, V_main_v2, V_main_v3, V_main_arg8, V_main_arg9]

/-! ## The run, read -/

/-- The run re-posted: the two result arrays at their functions of the arguments, the arguments unchanged. -/
theorem run : θ_run defs (onTc (τ := τ) (main (F := Ideal))) ⟨m, fun _ => 0, ρ⟩ fun r => ∀ c : Dev nD,
      r.2.mem ((c : Thread nD τ).loc main_v4_0) = hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v4_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Cert.KernelIdeal.ValueP.run_blocks m ρ)

end Cert.KernelArray

end
-- ==== Proof.RefRows.lean ====
/-
  The reference program's two results, read at row `r` and column `o`, are the cell function of row `r` in the
  REFERENCE arrangement (Cell.lean): the new cell row is `cellR`, the new hidden row `hidR`, of the node `nodeOf … r`
  under the weights `paramsOf …`.

  Pure reading, one stage of the program at a time, each at explicit coordinates:
    * the two products with `x` are the sums `wfx` and `ioux`;
    * the concatenation of `(1 - e) · h` and `e · h` along the last axis is the routed row `routedR`: a position below
      512 falls in the first piece, a position from 512 on in the second piece at that position less 512;
    * the sum of the routed rows over the eight neighbours from the zero word is `routedSum`, and its contraction with
      `U_iou` is `ioumidR`;
    * the forget gate's argument is `(x · W_f + routed k · U_f) + b_f`, and `1 / (1 + exp (-t))` with the word of one is
      the logistic function, so the product with the neighbour's cell row is `gateR` and the sum over the neighbours
      from the zero word is `caggR`;
    * `(x · W_iou + (Σ routed) · U_iou) + b_iou` is `iouR`, and the three slices at columns 0, 512 and 1024 read it at
      the positions `gI o`, `gO o`, `gU o`.
  No finiteness is needed here: every step is an equation between extended reals that holds for all of them.
-/
import proofs.«101348_j32933809225898_2_alg».proof.Proof.RefReadP
import proofs.«101348_j32933809225898_2_alg».proof.Proof.Rows
import Idealize.ShloMosaic.Lib.IdealHost

noncomputable section

open scoped BigOperators

namespace Cert.RefRows

open Idealize.ShloMosaic Idealize.ShloMosaic.ValueIdx Cert.ReferenceIdeal Cert.ReferenceIdeal.ReadP Cert.TreeCell

section Stages

variable (x0 : FVec Ideal S8192x512 .f32) (x1 x2 : FVec Ideal S8192x8x512 .f32) (x3 : FVec Ideal S8192x8x1 .f32)
  (x4 : FVec Ideal S512x1536 .f32) (x5 : FVec Ideal S512x512 .f32) (x6 : FVec Ideal S1024x1536 .f32)
  (x7 : FVec Ideal S1024x512 .f32) (x8 : FVec Ideal S1536 .f32) (x9 : FVec Ideal S512 .f32)

/-- `x · W_f` at row `r`, column `o`. -/
theorem v0_row (r : Fin 8192) (o : Fin 512) :
    val_main_v0 (F := Ideal) x0 x5 (ix2 r o) = wfx (paramsOf x4 x5 x6 x7 x8 x9) (nodeOf x0 x1 x2 x3 r) o := by
  rw [val_main_v0_apply]
  refine Finset.sum_congr rfl fun j _ => ?_
  have el : lidx_main_v0 (ix2 r o) j = ix2 r j :=
    funext fun a => Fin.ext (by match a with | ⟨0, _⟩ => rfl | ⟨1, _⟩ => rfl)
  have er : ridx_main_v0 (ix2 r o) j = ix2 j o :=
    funext fun a => Fin.ext (by match a with | ⟨0, _⟩ => rfl | ⟨1, _⟩ => rfl)
  rw [el, er]
  rfl

/-- `x · W_iou` at row `r`, gate column `q`. -/
theorem v1_row (r : Fin 8192) (q : Fin 1536) :
    val_main_v1 (F := Ideal) x0 x4 (ix2 r q) = ioux (paramsOf x4 x5 x6 x7 x8 x9) (nodeOf x0 x1 x2 x3 r) q := by
  rw [val_main_v1_apply]
  refine Finset.sum_congr rfl fun j _ => ?_
  have el : lidx_main_v1 (ix2 r q) j = ix2 r j :=
    funext fun a => Fin.ext (by match a with | ⟨0, _⟩ => rfl | ⟨1, _⟩ => rfl)
  have er : ridx_main_v1 (ix2 r q) j = ix2 j q :=
    funext fun a => Fin.ext (by match a with | ⟨0, _⟩ => rfl | ⟨1, _⟩ => rfl)
  rw [el, er]
  rfl

/-- The routed row of neighbour `k` at position `d`: below 512 the first piece, the factor `1 - e`; from 512 on the
    second piece, the factor `e`, at `d - 512`. -/
theorem v8_row (r : Fin 8192) (k : Fin 8) (d : Fin 1024) :
    val_main_v8 (F := Ideal) x1 x3 (ix3 r k d) = routedR (fun j => x1 (ix3 r k j)) (x3 (ix3 r k (0 : Fin 1))) d := by
  unfold routedR val_main_v8
  by_cases hd : d.val < 512
  · rw [dif_pos hd]
    rw [concatenate_pair_apply_left (s₁ := S8192x8x512) (s₂ := S8192x8x512) (2 : Fin S8192x8x1024.rank) _ _ _ (ix3 r k d) rfl (ix3 r k (⟨d.val, hd⟩ : Fin 512))
      (fun b => by match b with | ⟨0, _⟩ => rfl | ⟨1, _⟩ => rfl | ⟨2, _⟩ => rfl)]
    rw [val_main_v7_apply, val_main_v6_apply, val_main_v5_apply, val_main_v4_apply, val_main_cst_apply]
    have e6 : idx_main_v6 (ix3 r k (⟨d.val, hd⟩ : Fin 512)) = ix3 r k (0 : Fin 1) :=
      funext fun a => Fin.ext (by match a with | ⟨0, _⟩ => rfl | ⟨1, _⟩ => rfl | ⟨2, _⟩ => rfl)
    rw [e6, Ideal.mulf_def, Ideal.subf_def, Ideal.ofBits_def, Ideal.ofBits_one_f32]
  · rw [dif_neg hd]
    have hd' : d.val - 512 < 512 := by have := d.isLt; omega
    rw [concatenate_pair_apply_right (s₁ := S8192x8x512) (s₂ := S8192x8x512) (2 : Fin S8192x8x1024.rank) _ _ _ (ix3 r k d) rfl rfl (ix3 r k (⟨d.val - 512, hd'⟩ : Fin 512))
      (fun b hb => by match b with | ⟨0, _⟩ => rfl | ⟨1, _⟩ => rfl | ⟨2, _⟩ => exact absurd rfl hb)
      (by show d.val - 512 + 512 = d.val; omega)]
    rw [val_main_v3_apply, val_main_v2_apply]
    have e2 : idx_main_v2 (ix3 r k (⟨d.val - 512, hd'⟩ : Fin 512)) = ix3 r k (0 : Fin 1) :=
      funext fun a => Fin.ext (by match a with | ⟨0, _⟩ => rfl | ⟨1, _⟩ => rfl | ⟨2, _⟩ => rfl)
    rw [e2, Ideal.mulf_def]

/-- The routed rows summed over the neighbours from the zero word. -/
theorem v9_row (r : Fin 8192) (d : Fin 1024) :
    val_main_v9 (F := Ideal) x1 x3 (ix2 r d) = routedSum (nodeOf x0 x1 x2 x3 r) d := by
  rw [val_main_v9_apply, val_main_cst_0_apply, Ideal.ofBits_def, Ideal.ofBits_zero_f32]
  unfold routedSum
  refine congrArg (fun t => (0 : EReal) + t) (Finset.sum_congr rfl fun k _ => ?_)
  have e9 : idx_main_v9 (ix2 r d) k = ix3 r k d :=
    funext fun a => Fin.ext (by match a with | ⟨0, _⟩ => rfl | ⟨1, _⟩ => rfl | ⟨2, _⟩ => rfl)
  rw [e9, v8_row]
  rfl

/-- The summed routed row contracted with the whole `U_iou`. -/
theorem v10_row (r : Fin 8192) (q : Fin 1536) :
    val_main_v10 (F := Ideal) x1 x3 x6 (ix2 r q) = ioumidR (paramsOf x4 x5 x6 x7 x8 x9) (nodeOf x0 x1 x2 x3 r) q := by
  rw [val_main_v10_apply]
  unfold ioumidR
  refine Finset.sum_congr rfl fun d _ => ?_
  have el : lidx_main_v10 (ix2 r q) d = ix2 r d :=
    funext fun a => Fin.ext (by match a with | ⟨0, _⟩ => rfl | ⟨1, _⟩ => rfl)
  have er : ridx_main_v10 (ix2 r q) d = ix2 d q :=
    funext fun a => Fin.ext (by match a with | ⟨0, _⟩ => rfl | ⟨1, _⟩ => rfl)
  rw [el, er, v9_row x0 x1 x2 x3]
  rfl

/-- Neighbour `k`'s routed row contracted with `U_f`. -/
theorem v11_row (r : Fin 8192) (k : Fin 8) (o : Fin 512) :
    val_main_v11 (F := Ideal) x1 x3 x7 (ix3 r k o)
      = ∑ d : Fin 1024, routedR (fun j => x1 (ix3 r k j)) (x3 (ix3 r k (0 : Fin 1))) d * x7 (ix2 d o) := by
  rw [val_main_v11_apply]
  refine Finset.sum_congr rfl fun d _ => ?_
  have el : lidx_main_v11 (ix3 r k o) d = ix3 r k d :=
    funext fun a => Fin.ext (by match a with | ⟨0, _⟩ => rfl | ⟨1, _⟩ => rfl | ⟨2, _⟩ => rfl)
  have er : ridx_main_v11 (ix3 r k o) d = ix2 d o :=
    funext fun a => Fin.ext (by match a with | ⟨0, _⟩ => rfl | ⟨1, _⟩ => rfl)
  rw [el, er, v8_row]

/-- The forget gate's argument for neighbour `k`: `(x · W_f + routed k · U_f) + b_f`, the bias last. -/
theorem v17_row (r : Fin 8192) (k : Fin 8) (o : Fin 512) :
    val_main_v17 (F := Ideal) x0 x1 x3 x5 x7 x9 (ix3 r k o)
      = (wfx (paramsOf x4 x5 x6 x7 x8 x9) (nodeOf x0 x1 x2 x3 r) o
          + ∑ d : Fin 1024, routedR (fun j => x1 (ix3 r k j)) (x3 (ix3 r k (0 : Fin 1))) d * x7 (ix2 d o))
        + x9 (ix1 o) := by
  rw [val_main_v17_apply, val_main_v14_apply, val_main_v13_apply, val_main_v12_apply, val_main_v16_apply,
    val_main_v15_apply]
  have e12 : idx_main_v12 (idx_main_v13 (ix3 r k o)) = ix2 r o :=
    funext fun a => Fin.ext (by match a with | ⟨0, _⟩ => rfl | ⟨1, _⟩ => rfl)
  have e15 : idx_main_v15 (idx_main_v16 (ix3 r k o)) = ix1 o :=
    funext fun a => Fin.ext (by match a with | ⟨0, _⟩ => rfl)
  rw [e12, e15, v0_row x0 x1 x2 x3 x4 x5 x6 x7 x8 x9, v11_row, Ideal.addf_def, Ideal.addf_def]

/-- The host's `1 / (1 + exp (-t))` with the literal one is the logistic function. -/
theorem logistic_spelt (t : EReal) :
    FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp (FloatOps.hostNegf (F := Ideal) (φ := .f32) t)))
      = Ideal.logistic t := by
  rw [Ideal.hostDivf_def, Ideal.addf_def, Ideal.hostUnary_exp_def, Ideal.hostNegf_def, Ideal.negf_def, Ideal.ofBits_def,
    Ideal.ofBits_one_f32]
  rfl

/-- Neighbour `k`'s forget gate times its cell row. -/
theorem v24_row (r : Fin 8192) (k : Fin 8) (o : Fin 512) :
    val_main_v24 (F := Ideal) x0 x1 x2 x3 x5 x7 x9 (ix3 r k o)
      = gateR (paramsOf x4 x5 x6 x7 x8 x9) (nodeOf x0 x1 x2 x3 r) k o := by
  rw [val_main_v24_apply, val_main_v23_apply, val_main_v22_apply, val_main_cst_2_apply, val_main_v21_apply,
    val_main_v20_apply, val_main_cst_1_apply, val_main_v19_apply, val_main_v18_apply, logistic_spelt,
    v17_row x0 x1 x2 x3 x4 x5 x6 x7 x8 x9, Ideal.mulf_def]
  rfl

/-- The eight products summed over the neighbours from the zero word. -/
theorem v25_row (r : Fin 8192) (o : Fin 512) :
    val_main_v25 (F := Ideal) x0 x1 x2 x3 x5 x7 x9 (ix2 r o)
      = caggR (paramsOf x4 x5 x6 x7 x8 x9) (nodeOf x0 x1 x2 x3 r) o := by
  rw [val_main_v25_apply, val_main_cst_3_apply, Ideal.ofBits_def, Ideal.ofBits_zero_f32]
  unfold caggR
  refine congrArg (fun t => (0 : EReal) + t) (Finset.sum_congr rfl fun k _ => ?_)
  have e25 : idx_main_v25 (ix2 r o) k = ix3 r k o :=
    funext fun a => Fin.ext (by match a with | ⟨0, _⟩ => rfl | ⟨1, _⟩ => rfl | ⟨2, _⟩ => rfl)
  rw [e25, v24_row x0 x1 x2 x3 x4 x5 x6 x7 x8 x9]

/-- The three gates' argument at gate column `q`: `(x · W_iou + (Σ routed) · U_iou) + b_iou`. -/
theorem v29_row (r : Fin 8192) (q : Fin 1536) :
    val_main_v29 (F := Ideal) x0 x1 x3 x4 x6 x8 (ix2 r q)
      = iouR (paramsOf x4 x5 x6 x7 x8 x9) (nodeOf x0 x1 x2 x3 r) q := by
  rw [val_main_v29_apply, val_main_v26_apply, val_main_v28_apply, val_main_v27_apply]
  have e27 : idx_main_v27 (idx_main_v28 (ix2 r q)) = ix1 q :=
    funext fun a => Fin.ext (by match a with | ⟨0, _⟩ => rfl)
  rw [e27, v1_row x0 x1 x2 x3 x4 x5 x6 x7 x8 x9, v10_row x0 x1 x2 x3 x4 x5 x6 x7 x8 x9, Ideal.addf_def, Ideal.addf_def]
  rfl

/-- The slice from column 0 reads the input gate's columns. -/
theorem v30_row (r : Fin 8192) (o : Fin 512) :
    val_main_v30 (F := Ideal) x0 x1 x3 x4 x6 x8 (ix2 r o)
      = iouR (paramsOf x4 x5 x6 x7 x8 x9) (nodeOf x0 x1 x2 x3 r) (gI o) := by
  have e : idx_main_v30 (ix2 r o) = ix2 r (gI o) :=
    funext fun a => Fin.ext (by match a with | ⟨0, _⟩ => rfl | ⟨1, _⟩ => rfl)
  rw [val_main_v30_apply, e, v29_row x0 x1 x2 x3 x4 x5 x6 x7 x8 x9]

/-- The slice from column 512 reads the output gate's columns. -/
theorem v31_row (r : Fin 8192) (o : Fin 512) :
    val_main_v31 (F := Ideal) x0 x1 x3 x4 x6 x8 (ix2 r o)
      = iouR (paramsOf x4 x5 x6 x7 x8 x9) (nodeOf x0 x1 x2 x3 r) (gO o) := by
  have e : idx_main_v31 (ix2 r o) = ix2 r (gO o) :=
    funext fun a => Fin.ext (by match a with | ⟨0, _⟩ => rfl | ⟨1, _⟩ => rfl)
  rw [val_main_v31_apply, e, v29_row x0 x1 x2 x3 x4 x5 x6 x7 x8 x9]

/-- The slice from column 1024 reads the update gate's columns. -/
theorem v32_row (r : Fin 8192) (o : Fin 512) :
    val_main_v32 (F := Ideal) x0 x1 x3 x4 x6 x8 (ix2 r o)
      = iouR (paramsOf x4 x5 x6 x7 x8 x9) (nodeOf x0 x1 x2 x3 r) (gU o) := by
  have e : idx_main_v32 (ix2 r o) = ix2 r (gU o) :=
    funext fun a => Fin.ext (by match a with | ⟨0, _⟩ => rfl | ⟨1, _⟩ => rfl)
  rw [val_main_v32_apply, e, v29_row x0 x1 x2 x3 x4 x5 x6 x7 x8 x9]

/-- The input gate. -/
theorem v38_row (r : Fin 8192) (o : Fin 512) :
    val_main_v38 (F := Ideal) x0 x1 x3 x4 x6 x8 (ix2 r o)
      = Ideal.logistic (iouR (paramsOf x4 x5 x6 x7 x8 x9) (nodeOf x0 x1 x2 x3 r) (gI o)) := by
  rw [val_main_v38_apply, val_main_v37_apply, val_main_cst_5_apply, val_main_v36_apply, val_main_v35_apply,
    val_main_cst_4_apply, val_main_v34_apply, val_main_v33_apply, logistic_spelt,
    v30_row x0 x1 x2 x3 x4 x5 x6 x7 x8 x9]

/-- The output gate. -/
theorem v44_row (r : Fin 8192) (o : Fin 512) :
    val_main_v44 (F := Ideal) x0 x1 x3 x4 x6 x8 (ix2 r o)
      = Ideal.logistic (iouR (paramsOf x4 x5 x6 x7 x8 x9) (nodeOf x0 x1 x2 x3 r) (gO o)) := by
  rw [val_main_v44_apply, val_main_v43_apply, val_main_cst_7_apply, val_main_v42_apply, val_main_v41_apply,
    val_main_cst_6_apply, val_main_v40_apply, val_main_v39_apply, logistic_spelt,
    v31_row x0 x1 x2 x3 x4 x5 x6 x7 x8 x9]

/-- The update gate. -/
theorem v45_row (r : Fin 8192) (o : Fin 512) :
    val_main_v45 (F := Ideal) x0 x1 x3 x4 x6 x8 (ix2 r o)
      = Ideal.tanh (iouR (paramsOf x4 x5 x6 x7 x8 x9) (nodeOf x0 x1 x2 x3 r) (gU o)) := by
  rw [val_main_v45_apply, v32_row x0 x1 x2 x3 x4 x5 x6 x7 x8 x9, Ideal.hostUnary_tanh_def]

end Stages

/-- The reference's second result at row `r`, column `o`: the new cell row in the reference arrangement. -/
theorem cell_apply (x0 : FVec Ideal S8192x512 .f32) (x1 x2 : FVec Ideal S8192x8x512 .f32) (x3 : FVec Ideal S8192x8x1 .f32)
    (x4 : FVec Ideal S512x1536 .f32) (x5 : FVec Ideal S512x512 .f32) (x6 : FVec Ideal S1024x1536 .f32)
    (x7 : FVec Ideal S1024x512 .f32) (x8 : FVec Ideal S1536 .f32) (x9 : FVec Ideal S512 .f32) (r : Fin 8192) (o : Fin 512) :
    val_main_v47 (F := Ideal) x0 x1 x2 x3 x4 x5 x6 x7 x8 x9 (ix2 r o)
      = cellR (paramsOf x4 x5 x6 x7 x8 x9) (nodeOf x0 x1 x2 x3 r) o := by
  rw [val_main_v47_apply, val_main_v46_apply, v38_row x0 x1 x2 x3 x4 x5 x6 x7 x8 x9, v45_row x0 x1 x2 x3 x4 x5 x6 x7 x8 x9,
    v25_row x0 x1 x2 x3 x4 x5 x6 x7 x8 x9, Ideal.mulf_def, Ideal.addf_def]
  rfl

/-- The reference's first result at row `r`, column `o`: the new hidden row in the reference arrangement. -/
theorem hid_apply (x0 : FVec Ideal S8192x512 .f32) (x1 x2 : FVec Ideal S8192x8x512 .f32) (x3 : FVec Ideal S8192x8x1 .f32)
    (x4 : FVec Ideal S512x1536 .f32) (x5 : FVec Ideal S512x512 .f32) (x6 : FVec Ideal S1024x1536 .f32)
    (x7 : FVec Ideal S1024x512 .f32) (x8 : FVec Ideal S1536 .f32) (x9 : FVec Ideal S512 .f32) (r : Fin 8192) (o : Fin 512) :
    val_main_v49 (F := Ideal) x0 x1 x2 x3 x4 x5 x6 x7 x8 x9 (ix2 r o)
      = hidR (paramsOf x4 x5 x6 x7 x8 x9) (nodeOf x0 x1 x2 x3 r) o := by
  rw [val_main_v49_apply, val_main_v48_apply, v44_row x0 x1 x2 x3 x4 x5 x6 x7 x8 x9, cell_apply, Ideal.hostUnary_tanh_def,
    Ideal.mulf_def]
  rfl

end Cert.RefRows

end
-- ==== Proof.FiniteRows.lean ====
/-
  FROM THE PRECONDITION TO "EVERY ENTRY IS A REAL NUMBER".

  The precondition `finite_inputs` is, for each of the ten float arguments a, the bit "all of |a| < +∞", and the
  conjunction of the ten bits; the claim's hypothesis says that this conjunction is 1. A conjunction of bits is 1 only
  if each of them is; a reduction by `and` over a whole array is 1 only if every element is; and an element's bit is
  the comparison |x| < +∞ at that index. Floats are extended reals here and |x| is max x (-x): at x = +∞ and at
  x = -∞ it is +∞, which is not below +∞, so an x that passes the comparison is neither infinity, that is, a real
  number. This is read off for argument 1 (the [8192, 8, 512] rows) and for argument 3 (the [8192, 8, 1] labels).
-/
import proofs.«101348_j32933809225898_2_alg».proof.Defs
import Idealize.ShloMosaic.Lib.ReduceAll
import Idealize.ShloMosaic.Lib.ValueIdx

set_option maxRecDepth 16384

noncomputable section

namespace Cert.FiniteRows

open Idealize.ShloMosaic Cert.Pre_finite_inputs

/-- The shape of a single bit has exactly one index (an index is a function on an empty set of axes). -/
instance : Subsingleton S_.Idx := ⟨fun a b => funext fun d => d.elim0⟩

/-- The pattern 0x7F800000 (sign 0, exponent all ones, fraction 0) denotes +∞. -/
theorem inf_pattern : Ideal.ofBits .f32 0x7F800000#32 = ⊤ := by simp [Ideal.ofBits, Ideal.ieee]

/-- THE ELEMENT STEP. If |x| < +∞ holds of an extended real x, then x is a real number: |x| = max x (-x) is +∞
    both at x = +∞ and at x = -∞ (where -x = +∞), and +∞ < +∞ is false. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max x (-x)) (Ideal.ofBits .f32 0x7F800000#32) = 1#1 at h
  rw [inf_pattern] at h
  induction x using EReal.rec with
  | bot => simp [Ideal.cmp] at h
  | coe r => exact ⟨r, rfl⟩
  | top => simp [Ideal.cmp] at h

/-- THE PRECONDITION DECODED for arguments 1 and 3: every entry of the rows and every label is a real number.
    The ten bits are conjoined to the left, ((((((((c0 ∧ c1) ∧ c2) ∧ c3) ∧ c4) ∧ c5) ∧ c6) ∧ c7) ∧ c8) ∧ c9;
    c1 and c3 are kept, each is a reduction by `and` over the whole array, and each element is the comparison above. -/
theorem real_rows [Cert.Pre_finite_inputs.Facts]
    (a0 : FVec Ideal S8192x512 .f32) (a1 a2 : FVec Ideal S8192x8x512 .f32) (a3 : FVec Ideal S8192x8x1 .f32)
    (a4 : FVec Ideal S512x1536 .f32) (a5 : FVec Ideal S512x512 .f32) (a6 : FVec Ideal S1024x1536 .f32)
    (a7 : FVec Ideal S1024x512 .f32) (a8 : FVec Ideal S1536 .f32) (a9 : FVec Ideal S512 .f32)
    (h : Cert.Pre_finite_inputs.fn (F := Ideal) a0 a1 a2 a3 a4 a5 a6 a7 a8 a9 = fun _ => 1#1) :
    (∀ i, ∃ r : ℝ, a1 i = (r : EReal)) ∧ (∀ i, ∃ r : ℝ, a3 i = (r : EReal)) := by
  -- the value of the predicate at its one index, with the printed chain of operations in view
  have e := congrFun h ValueIdx.ix0
  dsimp only [fn, fn_part1, fn_part2] at e
  -- the conjunction of arrays of one bit is the conjunction of their bits, and it is 1 only if every bit is
  simp only [Idealize.ShloMosaic.andi, IntOp.andi_eq_one] at e
  obtain ⟨⟨⟨⟨⟨⟨⟨⟨⟨-, h1⟩, -⟩, h3⟩, -⟩, -⟩, -⟩, -⟩, -⟩, -⟩ := e
  -- a reduction by `and` over all axes that is 1 met a 1 at every index; that 1 is |x| < +∞ at the index
  exact ⟨fun i => real_of_abs_lt_inf (a1 i) (Host.reduce_andi_all _ _ _ _ _ h1 i),
    fun i => real_of_abs_lt_inf (a3 i) (Host.reduce_andi_all _ _ _ _ _ h3 i)⟩

end Cert.FiniteRows

end
-- ==== Proof.lean ====
/-
  The certificate of the tree-LSTM cell kernel against its jnp reference, at the extended reals.

  Both programs compute, for each of the 8192 nodes, the cell state `c` and the hidden state `h` of Cell.lean's cell
  function of the node's rows.  The kernel (64 grid points of 128 nodes each) computes the BLOCKED arrangement: the sums
  over the eight neighbours are taken before the contraction with `U_iou`, the routed half `(1 - e) · h` is written
  `h - e · h`, the forget gates' products are accumulated one after the other.  The reference computes the REFERENCE
  arrangement.  The two agree wherever the neighbours' hidden rows and the edge labels are real numbers (Cell.lean,
  `cellR_eq_cellK`, `hidR_eq_hidK`), and the precondition — every input finite — says they are (FiniteRows.lean).

  * What the kernel's two result arrays hold after its run: KernelArray.lean (`run`), over KernelBlock.lean (one grid
    point's two blocks at a node and a column).
  * What the reference's two results are at a row and a column: RefRows.lean, over the reference's run read operation by
    operation.
  * The frames of the two kernel programs are the generated frame certificates; the reference's frame is its run with the
    results dropped.  The idealization rewrote nothing, so `preserves` has nothing to state.
-/
import proofs.«101348_j32933809225898_2_alg».proof.Defs
import proofs.«101348_j32933809225898_2_alg».proof.Proof.Gen.Kernel
import proofs.«101348_j32933809225898_2_alg».proof.Proof.Gen.Kernel.Frame
import proofs.«101348_j32933809225898_2_alg».proof.Proof.Gen.KernelIdeal
import proofs.«101348_j32933809225898_2_alg».proof.Proof.Gen.KernelIdeal.Frame
import proofs.«101348_j32933809225898_2_alg».proof.Proof.Gen.ReferenceIdeal
import proofs.«101348_j32933809225898_2_alg».proof.Proof.Gen.Pre_finite_inputs
import proofs.«101348_j32933809225898_2_alg».proof.Proof.KernelArray
import proofs.«101348_j32933809225898_2_alg».proof.Proof.RefRows
import proofs.«101348_j32933809225898_2_alg».proof.Proof.FiniteRows
import Idealize.ShloMosaic.Adequacy
import Idealize.ShloMosaic.Init

noncomputable section

namespace Cert.Proof

open Idealize.ShloMosaic Idealize.ShloMosaic.ValueIdx Idealize.SL.Sem Cert.TreeCell

/-! ## The two arrangements as whole arrays -/

/-- The reference's cell state is the array of the blocked arrangement's cell states, when the neighbours' hidden rows
    and the edge labels are real. -/
theorem cell_eq (x0 : FVec Ideal Cert.ReferenceIdeal.S8192x512 .f32) (x1 x2 : FVec Ideal Cert.ReferenceIdeal.S8192x8x512 .f32)
    (x3 : FVec Ideal Cert.ReferenceIdeal.S8192x8x1 .f32) (x4 : FVec Ideal Cert.ReferenceIdeal.S512x1536 .f32)
    (x5 : FVec Ideal Cert.ReferenceIdeal.S512x512 .f32) (x6 : FVec Ideal Cert.ReferenceIdeal.S1024x1536 .f32)
    (x7 : FVec Ideal Cert.ReferenceIdeal.S1024x512 .f32) (x8 : FVec Ideal Cert.ReferenceIdeal.S1536 .f32)
    (x9 : FVec Ideal Cert.ReferenceIdeal.S512 .f32)
    (hh : ∀ i, ∃ r : ℝ, x1 i = (r : EReal)) (he : ∀ i, ∃ r : ℝ, x3 i = (r : EReal)) :
    Cert.ReferenceIdeal.ReadP.val_main_v47 (F := Ideal) x0 x1 x2 x3 x4 x5 x6 x7 x8 x9 = Cert.KernelArray.cellArr x0 x1 x2 x3 x4 x5 x6 x7 x8 x9 := by
  funext i
  obtain ⟨r, o, rfl⟩ : ∃ (r : Fin 8192) (o : Fin 512), i = ix2 r o := ⟨i 0, i 1, eq_ix2 i⟩
  rw [Cert.RefRows.cell_apply, Cert.KernelArray.cellArr_apply]
  exact cellR_eq_cellK _ _ (nodeOf_isReal x0 x1 x2 x3 hh he r) o

/-- The same for the hidden state. -/
theorem hid_eq (x0 : FVec Ideal Cert.ReferenceIdeal.S8192x512 .f32) (x1 x2 : FVec Ideal Cert.ReferenceIdeal.S8192x8x512 .f32)
    (x3 : FVec Ideal Cert.ReferenceIdeal.S8192x8x1 .f32) (x4 : FVec Ideal Cert.ReferenceIdeal.S512x1536 .f32)
    (x5 : FVec Ideal Cert.ReferenceIdeal.S512x512 .f32) (x6 : FVec Ideal Cert.ReferenceIdeal.S1024x1536 .f32)
    (x7 : FVec Ideal Cert.ReferenceIdeal.S1024x512 .f32) (x8 : FVec Ideal Cert.ReferenceIdeal.S1536 .f32)
    (x9 : FVec Ideal Cert.ReferenceIdeal.S512 .f32)
    (hh : ∀ i, ∃ r : ℝ, x1 i = (r : EReal)) (he : ∀ i, ∃ r : ℝ, x3 i = (r : EReal)) :
    Cert.ReferenceIdeal.ReadP.val_main_v49 (F := Ideal) x0 x1 x2 x3 x4 x5 x6 x7 x8 x9 = Cert.KernelArray.hidArr x0 x1 x2 x3 x4 x5 x6 x7 x8 x9 := by
  funext i
  obtain ⟨r, o, rfl⟩ : ∃ (r : Fin 8192) (o : Fin 512), i = ix2 r o := ⟨i 0, i 1, eq_ix2 i⟩
  rw [Cert.RefRows.hid_apply, Cert.KernelArray.hidArr_apply]
  exact hidR_eq_hidK _ _ (nodeOf_isReal x0 x1 x2 x3 hh he r) o

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.ValueP.run (F := Ideal) m ρ)

/-- The two idealized programs, run from memories that agree on the arguments, end with equal results: the kernel's
    arrays are the blocked arrangement of every node, the reference's the reference arrangement, and the arguments'
    rows are real by the precondition. -/
theorem algebraic : Cert.algebraic_KernelIdeal_ReferenceIdeal := by
  intro m ρ m' ρ' hpre hagree
  refine ⟨_, _, Cert.KernelArray.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨hh, he⟩ := Cert.FiniteRows.real_rows _ _ _ _ _ _ _ _ _ _ (hpre c)
    rw [Cert.ReferenceIdeal.ReadP.val_main_v49_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact hid_eq _ _ _ _ _ _ _ _ _ _ hh he
  · obtain ⟨hh, he⟩ := Cert.FiniteRows.real_rows _ _ _ _ _ _ _ _ _ _ (hpre c)
    refine (Cert.ReferenceIdeal.ReadP.val_main_v47_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9))).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact cell_eq _ _ _ _ _ _ _ _ _ _ hh he

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
